-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x32 .f32) (main_arg14 : FVec F S32 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x32 .f32 := Host.absf main_arg13
  let main_cst_22 : FVec F S_ .f32 := constant S_ .f32 0x7F800000#32
  let main_v60 : FVec F S128x32 .f32 := broadcastInDim S128x32 ![] bcast_S_S128x32 main_cst_22
  let main_v61 : IVec S128x32 1 := cmpf .olt main_v59 main_v60
  let main_c_23 : IVec S_ 1 := constantI S_ 1 1#1
  let main_v62 : IVec S_ 1 := (fun x v => Host.reduce IntOp.andi x v reducesTo_S128x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S128x32 .f32) (main_arg14 : FVec F S32 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x32 .f32) (main_arg14 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x32 .f32) (main_arg14 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S100000x32 : Shape := ⟨2, ![100000, 32]⟩

abbrev nBuf : Space → Nat
  | .hbm => 75
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x32, .f32⟩
  | .hbm, ⟨14, _⟩ => ⟨S32, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S100000x128, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .bf16⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S100000x128, .bf16⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .bf16⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .i32⟩
  | .hbm, ⟨65, _⟩ => ⟨S_, .f32⟩
  | .hbm, ⟨66, _⟩ => ⟨S128x128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S100000x128, .f32⟩
  | .hbm, ⟨74, _⟩ => ⟨S100000x32, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S4000x128, .bf16⟩
  | .local _ .vmem, ⟨8, _⟩ => ⟨S4000x128, .bf16⟩
  | .local _ .vmem, ⟨9, _⟩ => ⟨S4000x128, .f32⟩
  | .local _ .vmem, ⟨10, _⟩ => ⟨S4000x128, .f32⟩
  | .local _ .vmem, ⟨11, _⟩ => ⟨S4000x128, .bf16⟩
  | .local _ .vmem, ⟨12, _⟩ => ⟨S4000x128, .bf16⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S4000x128, .bf16⟩
  | .local _ .vmem, ⟨17, _⟩ => ⟨S4000x128, .bf16⟩
  | .local _ .vmem, ⟨18, _⟩ => ⟨S4000x128, .f32⟩
  | .local _ .vmem, ⟨19, _⟩ => ⟨S4000x128, .f32⟩
  | .local _ .vmem, ⟨20, _⟩ => ⟨S4000x128, .bf16⟩
  | .local _ .vmem, ⟨21, _⟩ => ⟨S4000x128, .bf16⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S4000x128, .f32⟩
  | .local _ .vmem, ⟨30, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_7 : Ref sig .tc := ⟨.hbm, 64, rfl⟩
abbrev main_call0_v0 : Ref sig .tc := ⟨.hbm, 65, rfl⟩
abbrev main_v40 : Ref sig .tc := ⟨.hbm, 66, rfl⟩
abbrev main_c_8 : Ref sig .tc := ⟨.hbm, 67, rfl⟩
abbrev main_call1_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg9_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem9_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  pads_S128x32_S128x128_000_0960 : S128x32.Pads (![0, 0] : Fin 2 → Nat) ![0, 96] ![0, 0] S128x128
  h_S_ : 0 < S_.numel
  pads_S32_S128_0960 : S32.Pads (![0] : Fin 1 → Nat) ![96] ![0] S128
  shapeCasts_S128x128_S128x128 : S128x128.ShapeCasts S128x128
  slices_S100000x128_S100000x32_0_0 : S100000x128.Slices ![0, 0] S100000x32
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .bf16 = 32 ∨ (Rect.block (s := S100000x128) S4000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .bf16 = 32 ∨ (Rect.block (s := S100000x128) S4000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S100000x128.size a
  hwx2_9 : ∀ i : grid2.Coords, EltTy.bits .f32 = 32 ∨ (Rect.block (s := S100000x128) S4000x128.size (cc2_transform_9 i) (hinb2_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v45) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x32 : Shape := ⟨2, ![100000, 32]⟩
abbrev S1x32 : Shape := ⟨2, ![1, 32]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x32, .f32⟩
  | .hbm, ⟨14, _⟩ => ⟨S32, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x32, .f32⟩
  | .hbm, ⟨93, _⟩ => ⟨S1x32, .f32⟩
  | .hbm, ⟨94, _⟩ => ⟨S100000x32, .f32⟩
  | .hbm, ⟨95, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_c_1 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_c_4 : Ref sig .tc := ⟨.hbm, 63, rfl⟩
abbrev main_v38 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_cst : Ref sig .tc := ⟨.hbm, 89, rfl⟩
abbrev main_call3_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.KernelRun.lean ====
/-
  The idealized kernel's run with its result named: every weakly fair execution of @main terminates, nothing faulting,
  with the result buffer at the last boundary's contents `W11` — the fold of @main's host stretches and three regions
  from the launch memory — and the argument arrays as launched.

  The generated frame run reads every unscoped buffer of the final state against that fold and keeps only the arguments;
  this is the same launch over the same segments, keeping the result buffer as well.
-/
import proofs.«116513_j1520418422913_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v46) = W11 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v46 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c)⟩)

end Cert.KernelIdeal.Run

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«116513_j1520418422913_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.LibDenseLayers.lean ====
/-
  Dense layers as functions of whole arrays over the extended reals, for any extents, and how a kernel and a host program
  each compute an entry: general lemmas.

  `dense x w b` is `x · w + b`: entry (p, q) is the sum over j of x(p, j) · w(j, q), plus the bias row's entry q.
  `dense2 x₁ x₂ w b` multiplies the rows of `w` below `k₁` with `x₁` and the rows from `k₁` on with `x₂`:
  entry (p, q) is  Σ_{j<k₁} x₁(p, j) · w(j, q)  +  Σ_{j<k₂} x₂(p, j) · w(k₁ + j, q),  plus the bias.
  The kernel computes exactly these (two matrix products into zero accumulators, on the two row ranges of the weight
  block, then the broadcast bias row). The reference concatenates `x₁` and `x₂` along the columns and takes ONE product
  over all k₁ + k₂ columns: a sum over `Fin (k₁ + k₂)` splits into its first k₁ and last k₂ terms — additivity of a
  finite sum over a disjoint union, which holds in any commutative monoid, so no finiteness of the entries is needed.
-/
import proofs.«116513_j1520418422913_2_alg».proof.Proof.LibMatRows
import proofs.«116513_j1520418422913_2_alg».proof.Proof.LibHostBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.LibDenseLayers

open Idealize.ShloMosaic Idealize.ShloMosaic.ValueIdx Cert.LibMatRows Cert.LibHostBroadcast

variable {a k k1 k2 n : ℕ}

/-! ## The layers -/

/-- Entry (p, q) of `x · w + b`. -/
def denseAt (x : (⟨2, ![a, k]⟩ : Shape).Idx → EReal) (w : (⟨2, ![k, n]⟩ : Shape).Idx → EReal)
    (b : (⟨2, ![1, n]⟩ : Shape).Idx → EReal) (p : Fin a) (q : Fin n) : EReal :=
  (∑ j : Fin k, x (ix2 p j) * w (ix2 j q)) + b (ix2 (0 : Fin 1) q)

/-- `x · w + b` as one array. -/
def dense (x : (⟨2, ![a, k]⟩ : Shape).Idx → EReal) (w : (⟨2, ![k, n]⟩ : Shape).Idx → EReal)
    (b : (⟨2, ![1, n]⟩ : Shape).Idx → EReal) : (⟨2, ![a, n]⟩ : Shape).Idx → EReal :=
  fun i => denseAt x w b (i 0) (i 1)

/-- Entry (p, q) of `x₁ · w[0:k₁] + x₂ · w[k₁:k] + b`. -/
def dense2At (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) (p : Fin a) (q : Fin n) : EReal :=
  ((∑ j : Fin k1, x1 (ix2 p j) * w (ix2 (⟨j.val, by have := j.isLt; omega⟩ : Fin k) q))
    + (∑ j : Fin k2, x2 (ix2 p j) * w (ix2 (⟨k1 + j.val, by have := j.isLt; omega⟩ : Fin k) q)))
    + b (ix2 (0 : Fin 1) q)

/-- `x₁ · w[0:k₁] + x₂ · w[k₁:k] + b` as one array. -/
def dense2 (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) : (⟨2, ![a, n]⟩ : Shape).Idx → EReal :=
  fun i => dense2At hk x1 x2 w b (i 0) (i 1)

/-- Two entries of two dense layers agree when the rows, the columns and the bias entries they read agree. -/
theorem denseAt_congr {a' n' : ℕ} {x : (⟨2, ![a, k]⟩ : Shape).Idx → EReal} {w : (⟨2, ![k, n]⟩ : Shape).Idx → EReal}
    {b : (⟨2, ![1, n]⟩ : Shape).Idx → EReal} {x' : (⟨2, ![a', k]⟩ : Shape).Idx → EReal} {w' : (⟨2, ![k, n']⟩ : Shape).Idx → EReal}
    {b' : (⟨2, ![1, n']⟩ : Shape).Idx → EReal} {p : Fin a} {q : Fin n} {p' : Fin a'} {q' : Fin n'}
    (hx : ∀ j : Fin k, x (ix2 p j) = x' (ix2 p' j)) (hw : ∀ j : Fin k, w (ix2 j q) = w' (ix2 j q'))
    (hb : b (ix2 (0 : Fin 1) q) = b' (ix2 (0 : Fin 1) q')) : denseAt x w b p q = denseAt x' w' b' p' q' := by
  unfold denseAt
  rw [hb]
  exact congrArg (· + _) (Finset.sum_congr rfl fun j _ => by rw [hx j, hw j])

/-- The same for a split layer; the weight block may be a window of `K'` rows' worth of a larger array. -/
theorem dense2At_congr {a' n' : ℕ} (hk : k1 + k2 = k) {x1 : (⟨2, ![a, k1]⟩ : Shape).Idx → EReal} {x2 : (⟨2, ![a, k2]⟩ : Shape).Idx → EReal}
    {w : (⟨2, ![k, n]⟩ : Shape).Idx → EReal} {b : (⟨2, ![1, n]⟩ : Shape).Idx → EReal}
    {x1' : (⟨2, ![a', k1]⟩ : Shape).Idx → EReal} {x2' : (⟨2, ![a', k2]⟩ : Shape).Idx → EReal}
    {w' : (⟨2, ![k, n']⟩ : Shape).Idx → EReal} {b' : (⟨2, ![1, n']⟩ : Shape).Idx → EReal}
    {p : Fin a} {q : Fin n} {p' : Fin a'} {q' : Fin n'}
    (hx1 : ∀ j : Fin k1, x1 (ix2 p j) = x1' (ix2 p' j)) (hx2 : ∀ j : Fin k2, x2 (ix2 p j) = x2' (ix2 p' j))
    (hw : ∀ j : Fin k, w (ix2 j q) = w' (ix2 j q'))
    (hb : b (ix2 (0 : Fin 1) q) = b' (ix2 (0 : Fin 1) q')) : dense2At hk x1 x2 w b p q = dense2At hk x1' x2' w' b' p' q' := by
  unfold dense2At
  rw [hb]
  refine congrArg (· + _) (congrArg₂ (· + ·) (Finset.sum_congr rfl fun j _ => ?_) (Finset.sum_congr rfl fun j _ => ?_))
  · rw [hx1 j, hw]
  · rw [hx2 j, hw]

/-! ## What the kernel computes at an entry -/

/-- A product into the zero accumulator plus the broadcast bias row, at (p, q). -/
theorem kernel_dense {d : DotDims ⟨2, ![a, k]⟩ ⟨2, ![k, n]⟩ ⟨2, ![a, n]⟩} (hd : RowsTimesMat d)
    (x : FVec Ideal ⟨2, ![a, k]⟩ .bf16) (w : FVec Ideal ⟨2, ![k, n]⟩ .bf16) (b : FVec Ideal ⟨2, ![1, n]⟩ .f32)
    (hb : (⟨2, ![1, n]⟩ : Shape).Broadcasts ⟨2, ![a, n]⟩) (p : Fin a) (q : Fin n) :
    addf (matmul d none x w (constant (F := Ideal) ⟨2, ![a, n]⟩ .f32 0x00000000#32)) (broadcastTo ⟨2, ![a, n]⟩ b hb) (ix2 p q)
      = denseAt x w b p q :=
  congrArg₂ (· + ·) (matmul_rows hd x w p q) (broadcastTo_1b_ab_apply b hb p q)

/-- Two products into zero accumulators, on the rows of the weight block below `k₁` and from `k₁` on, added, plus the
    broadcast bias row, at (p, q). -/
theorem kernel_dense2 (hk : k1 + k2 = k) {d1 : DotDims ⟨2, ![a, k1]⟩ ⟨2, ![k1, n]⟩ ⟨2, ![a, n]⟩} (hd1 : RowsTimesMat d1)
    {d2 : DotDims ⟨2, ![a, k2]⟩ ⟨2, ![k2, n]⟩ ⟨2, ![a, n]⟩} (hd2 : RowsTimesMat d2)
    (x1 : FVec Ideal ⟨2, ![a, k1]⟩ .bf16) (x2 : FVec Ideal ⟨2, ![a, k2]⟩ .bf16) (w : FVec Ideal ⟨2, ![k, n]⟩ .bf16)
    (b : FVec Ideal ⟨2, ![1, n]⟩ .f32)
    (h1 : (⟨2, ![k, n]⟩ : Shape).Slices ![0, 0] ⟨2, ![k1, n]⟩) (h2 : (⟨2, ![k, n]⟩ : Shape).Slices ![k1, 0] ⟨2, ![k2, n]⟩)
    (hb : (⟨2, ![1, n]⟩ : Shape).Broadcasts ⟨2, ![a, n]⟩) (p : Fin a) (q : Fin n) :
    addf (addf (matmul d1 none x1 (extractStridedSlice ⟨2, ![k1, n]⟩ ![0, 0] w h1) (constant (F := Ideal) ⟨2, ![a, n]⟩ .f32 0x00000000#32))
        (matmul d2 none x2 (extractStridedSlice ⟨2, ![k2, n]⟩ ![k1, 0] w h2) (constant (F := Ideal) ⟨2, ![a, n]⟩ .f32 0x00000000#32)))
      (broadcastTo ⟨2, ![a, n]⟩ b hb) (ix2 p q)
      = dense2At hk x1 x2 w b p q := by
  refine congrArg₂ (· + ·) (congrArg₂ (· + ·) ((matmul_rows hd1 x1 _ p q).trans ?_) ((matmul_rows hd2 x2 _ p q).trans ?_))
    (broadcastTo_1b_ab_apply b hb p q)
  · exact Finset.sum_congr rfl fun j _ => congrArg (x1 (ix2 p j) * ·)
      (slice2_axis0_apply 0 w h1 j q ⟨j.val, by have := j.isLt; omega⟩ (Nat.zero_add _).symm)
  · exact Finset.sum_congr rfl fun j _ => congrArg (x2 (ix2 p j) * ·)
      (slice2_axis0_apply k1 w h2 j q ⟨k1 + j.val, by have := j.isLt; omega⟩ rfl)

/-! ## What the reference computes at an entry -/

/-- The host's product plus the bias vector spread as a row and then down the rows, at (p, q). -/
theorem ref_dense {d : DotDims ⟨2, ![a, k]⟩ ⟨2, ![k, n]⟩ ⟨2, ![a, n]⟩} (hd : RowsTimesMat d)
    (x : FVec Ideal ⟨2, ![a, k]⟩ .f32) (w : FVec Ideal ⟨2, ![k, n]⟩ .f32) (b : FVec Ideal ⟨2, ![1, n]⟩ .f32)
    (h2 : (⟨2, ![1, n]⟩ : Shape).BroadcastsInDim ⟨2, ![a, n]⟩ (![0, 1] : Fin 2 → Fin 2)) (p : Fin a) (q : Fin n) :
    addf (Host.dotGeneral d none x w) (broadcastInDim ⟨2, ![a, n]⟩ (![0, 1] : Fin 2 → Fin 2) h2 b) (ix2 p q) = denseAt x w b p q :=
  congrArg₂ (· + ·) (dotGeneral_rows hd x w p q) (row_to_mat_apply b h2 p q)

/-- A sum over the first `k₁ + k₂` naturals splits into its first `k₁` and its last `k₂` terms. -/
theorem sum_split (hk : k1 + k2 = k) (f : Fin k → EReal) :
    ∑ j : Fin k, f j = (∑ j : Fin k1, f ⟨j.val, by have := j.isLt; omega⟩) + ∑ j : Fin k2, f ⟨k1 + j.val, by have := j.isLt; omega⟩ := by
  subst hk
  exact Fin.sum_univ_add f

/-- The host's ONE product over the concatenation of `x₁` and `x₂` along the columns, plus the bias, at (p, q): the
    split layer's entry. -/
theorem ref_dense2 (hk : k1 + k2 = k) {d : DotDims ⟨2, ![a, k]⟩ ⟨2, ![k, n]⟩ ⟨2, ![a, n]⟩} (hd : RowsTimesMat d)
    (x1 : FVec Ideal ⟨2, ![a, k1]⟩ .f32) (x2 : FVec Ideal ⟨2, ![a, k2]⟩ .f32) (w : FVec Ideal ⟨2, ![k, n]⟩ .f32)
    (b : FVec Ideal ⟨2, ![1, n]⟩ .f32)
    (hc : Shape.Concatenates [(⟨2, ![a, k1]⟩ : Shape), ⟨2, ![a, k2]⟩] ⟨2, ![a, k]⟩ 1)
    (h2 : (⟨2, ![1, n]⟩ : Shape).BroadcastsInDim ⟨2, ![a, n]⟩ (![0, 1] : Fin 2 → Fin 2)) (p : Fin a) (q : Fin n) :
    addf (Host.dotGeneral d none (concatenate ⟨2, ![a, k]⟩ 1 [⟨⟨2, ![a, k1]⟩, x1⟩, ⟨⟨2, ![a, k2]⟩, x2⟩] hc) w)
      (broadcastInDim ⟨2, ![a, n]⟩ (![0, 1] : Fin 2 → Fin 2) h2 b) (ix2 p q) = dense2At hk x1 x2 w b p q := by
  refine congrArg₂ (· + ·) ((dotGeneral_rows hd _ w p q).trans ((sum_split hk _).trans ?_)) (row_to_mat_apply b h2 p q)
  refine congrArg₂ (· + ·) (Finset.sum_congr rfl fun j _ => congrArg (· * _) ?_) (Finset.sum_congr rfl fun j _ => congrArg (· * _) ?_)
  · refine concatenate_pair_apply_left (t := ⟨2, ![a, k]⟩) (1 : Fin 2) x1 x2 hc _ rfl (ix2 p j) fun ax => ?_
    match ax with
    | ⟨0, _⟩ => rfl
    | ⟨1, _⟩ => rfl
  · refine concatenate_pair_apply_right (t := ⟨2, ![a, k]⟩) (1 : Fin 2) x1 x2 hc _ rfl rfl (ix2 p j) (fun ax hax => ?_) ?_
    · match ax with
      | ⟨0, _⟩ => rfl
      | ⟨1, _⟩ => exact absurd rfl hax
    · show j.val + k1 = k1 + j.val
      omega

/-- The bias vector spread as a row is the bias vector reshaped to a row. -/
theorem bias_row_eq (bv : (⟨1, ![n]⟩ : Shape).Idx → EReal)
    (h1 : (⟨1, ![n]⟩ : Shape).BroadcastsInDim ⟨2, ![1, n]⟩ (![1] : Fin 1 → Fin 2))
    (hs : (⟨1, ![n]⟩ : Shape).ShapeCasts ⟨2, ![1, n]⟩) :
    broadcastInDim ⟨2, ![1, n]⟩ (![1] : Fin 1 → Fin 2) h1 bv = shapeCast ⟨2, ![1, n]⟩ bv hs := by
  funext i
  rw [eq_ix2 i]
  exact (vec_to_row_apply bv h1 _ _).trans (shapeCast_a_1a_apply bv hs _ _).symm

end Cert.LibDenseLayers

end
-- ==== Proof.LibGraphConv.lean ====
/-
  The dense part of a graph-convolution layer over the extended reals, for any extents, and how a kernel and a host program
  each compute an entry: general lemmas.

  `convAt z agg x wrel wroot b p q` is entry (p, q) of  max ((agg · wrel + x · wroot) + b, z):  the aggregated
  neighbour rows times one weight matrix, plus the node's own row times another, plus the bias row's entry q, clamped
  below by `z` (a rectifier when `z` is zero).  `reluDenseAt z x w b p q` is  max (x · w + b, z)  at (p, q).

  A kernel adds the two products first and the bias last; a host program adds the bias to the first product and the second
  product last.  The two groupings are one extended real because addition there is commutative and associative
  (`add_right_comm`): no finiteness of the entries is needed.
-/
import proofs.«116513_j1520418422913_2_alg».proof.Proof.LibDenseLayers

noncomputable section

namespace Cert.LibGraphConv

open Idealize.ShloMosaic Idealize.ShloMosaic.ValueIdx Cert.LibMatRows Cert.LibHostBroadcast Cert.LibDenseLayers

variable {a k n : ℕ}

/-! ## The layers -/

/-- Entry (p, q) of  max ((agg · wrel + x · wroot) + b, z). -/
def convAt (z : EReal) (agg x : (⟨2, ![a, k]⟩ : Shape).Idx → EReal) (wrel wroot : (⟨2, ![k, n]⟩ : Shape).Idx → EReal)
    (b : (⟨2, ![1, n]⟩ : Shape).Idx → EReal) (p : Fin a) (q : Fin n) : EReal :=
  max (((∑ j : Fin k, agg (ix2 p j) * wrel (ix2 j q)) + ∑ j : Fin k, x (ix2 p j) * wroot (ix2 j q)) + b (ix2 (0 : Fin 1) q)) z

/-- The layer as one array. -/
def conv (z : EReal) (agg x : (⟨2, ![a, k]⟩ : Shape).Idx → EReal) (wrel wroot : (⟨2, ![k, n]⟩ : Shape).Idx → EReal)
    (b : (⟨2, ![1, n]⟩ : Shape).Idx → EReal) : (⟨2, ![a, n]⟩ : Shape).Idx → EReal :=
  fun i => convAt z agg x wrel wroot b (i 0) (i 1)

/-- Entry (p, q) of  max (x · w + b, z). -/
def reluDenseAt (z : EReal) (x : (⟨2, ![a, k]⟩ : Shape).Idx → EReal) (w : (⟨2, ![k, n]⟩ : Shape).Idx → EReal)
    (b : (⟨2, ![1, n]⟩ : Shape).Idx → EReal) (p : Fin a) (q : Fin n) : EReal :=
  max (denseAt x w b p q) z

/-- That layer as one array. -/
def reluDense (z : EReal) (x : (⟨2, ![a, k]⟩ : Shape).Idx → EReal) (w : (⟨2, ![k, n]⟩ : Shape).Idx → EReal)
    (b : (⟨2, ![1, n]⟩ : Shape).Idx → EReal) : (⟨2, ![a, n]⟩ : Shape).Idx → EReal :=
  fun i => reluDenseAt z x w b (i 0) (i 1)

theorem conv_apply (z : EReal) (agg x : (⟨2, ![a, k]⟩ : Shape).Idx → EReal) (wrel wroot : (⟨2, ![k, n]⟩ : Shape).Idx → EReal)
    (b : (⟨2, ![1, n]⟩ : Shape).Idx → EReal) (p : Fin a) (q : Fin n) :
    conv z agg x wrel wroot b (ix2 p q) = convAt z agg x wrel wroot b p q := rfl

theorem reluDense_apply (z : EReal) (x : (⟨2, ![a, k]⟩ : Shape).Idx → EReal) (w : (⟨2, ![k, n]⟩ : Shape).Idx → EReal)
    (b : (⟨2, ![1, n]⟩ : Shape).Idx → EReal) (p : Fin a) (q : Fin n) :
    reluDense z x w b (ix2 p q) = reluDenseAt z x w b p q := rfl

/-- Two entries of two such layers agree when the rows, the columns and the bias entries they read agree: an entry of a
    block of rows is the entry of the whole array at the block's row. -/
theorem convAt_congr {a' : ℕ} {z : EReal} {agg x : (⟨2, ![a, k]⟩ : Shape).Idx → EReal} {wrel wroot : (⟨2, ![k, n]⟩ : Shape).Idx → EReal}
    {b : (⟨2, ![1, n]⟩ : Shape).Idx → EReal} {agg' x' : (⟨2, ![a', k]⟩ : Shape).Idx → EReal}
    {wrel' wroot' : (⟨2, ![k, n]⟩ : Shape).Idx → EReal} {b' : (⟨2, ![1, n]⟩ : Shape).Idx → EReal}
    {p : Fin a} {p' : Fin a'} {q : Fin n}
    (hagg : ∀ j : Fin k, agg (ix2 p j) = agg' (ix2 p' j)) (hx : ∀ j : Fin k, x (ix2 p j) = x' (ix2 p' j))
    (hwrel : ∀ j : Fin k, wrel (ix2 j q) = wrel' (ix2 j q)) (hwroot : ∀ j : Fin k, wroot (ix2 j q) = wroot' (ix2 j q))
    (hb : b (ix2 (0 : Fin 1) q) = b' (ix2 (0 : Fin 1) q)) :
    convAt z agg x wrel wroot b p q = convAt z agg' x' wrel' wroot' b' p' q := by
  unfold convAt
  rw [hb]
  exact congrArg (max · z) (congrArg (· + _) (congrArg₂ (· + ·)
    (Finset.sum_congr rfl fun j _ => by rw [hagg j, hwrel j]) (Finset.sum_congr rfl fun j _ => by rw [hx j, hwroot j])))

/-- The same for the clamped dense layer; the right-hand layer may have other extents on the kept axes. -/
theorem reluDenseAt_congr {a' n' : ℕ} {z : EReal} {x : (⟨2, ![a, k]⟩ : Shape).Idx → EReal} {w : (⟨2, ![k, n]⟩ : Shape).Idx → EReal}
    {b : (⟨2, ![1, n]⟩ : Shape).Idx → EReal} {x' : (⟨2, ![a', k]⟩ : Shape).Idx → EReal} {w' : (⟨2, ![k, n']⟩ : Shape).Idx → EReal}
    {b' : (⟨2, ![1, n']⟩ : Shape).Idx → EReal} {p : Fin a} {q : Fin n} {p' : Fin a'} {q' : Fin n'}
    (hx : ∀ j : Fin k, x (ix2 p j) = x' (ix2 p' j)) (hw : ∀ j : Fin k, w (ix2 j q) = w' (ix2 j q'))
    (hb : b (ix2 (0 : Fin 1) q) = b' (ix2 (0 : Fin 1) q')) : reluDenseAt z x w b p q = reluDenseAt z x' w' b' p' q' :=
  congrArg (max · z) (denseAt_congr hx hw hb)

/-! ## What a kernel computes at an entry -/

/-- Two products into zero accumulators added, plus the broadcast bias row, clamped below by a splat, at (p, q). -/
theorem kernel_conv {d : DotDims ⟨2, ![a, k]⟩ ⟨2, ![k, n]⟩ ⟨2, ![a, n]⟩} (hd : RowsTimesMat d) {φ₁ φ₂ φ₃ φ₄ : FTy}
    (agg : FVec Ideal ⟨2, ![a, k]⟩ φ₁) (x : FVec Ideal ⟨2, ![a, k]⟩ φ₂) (wrel : FVec Ideal ⟨2, ![k, n]⟩ φ₃)
    (wroot : FVec Ideal ⟨2, ![k, n]⟩ φ₄) (b : FVec Ideal ⟨2, ![1, n]⟩ .f32)
    (hb : (⟨2, ![1, n]⟩ : Shape).Broadcasts ⟨2, ![a, n]⟩) (z : Ideal .f32) (p : Fin a) (q : Fin n) :
    maximumf (addf (addf (matmul d none agg wrel (constant (F := Ideal) ⟨2, ![a, n]⟩ .f32 0x00000000#32))
          (matmul d none x wroot (constant (F := Ideal) ⟨2, ![a, n]⟩ .f32 0x00000000#32)))
        (broadcastTo ⟨2, ![a, n]⟩ b hb)) (broadcast ⟨2, ![a, n]⟩ z) (ix2 p q)
      = convAt z agg x wrel wroot b p q :=
  congrArg (max · z) (congrArg₂ (· + ·) (congrArg₂ (· + ·) (matmul_rows hd agg wrel p q) (matmul_rows hd x wroot p q))
    (broadcastTo_1b_ab_apply b hb p q))

/-- One product into the zero accumulator, plus the broadcast bias row, clamped below by a splat, at (p, q). -/
theorem kernel_reluDense {d : DotDims ⟨2, ![a, k]⟩ ⟨2, ![k, n]⟩ ⟨2, ![a, n]⟩} (hd : RowsTimesMat d)
    (x : FVec Ideal ⟨2, ![a, k]⟩ .bf16) (w : FVec Ideal ⟨2, ![k, n]⟩ .bf16) (b : FVec Ideal ⟨2, ![1, n]⟩ .f32)
    (hb : (⟨2, ![1, n]⟩ : Shape).Broadcasts ⟨2, ![a, n]⟩) (z : Ideal .f32) (p : Fin a) (q : Fin n) :
    maximumf (addf (matmul d none x w (constant (F := Ideal) ⟨2, ![a, n]⟩ .f32 0x00000000#32)) (broadcastTo ⟨2, ![a, n]⟩ b hb))
        (broadcast ⟨2, ![a, n]⟩ z) (ix2 p q)
      = reluDenseAt z x w b p q :=
  congrArg (max · z) (kernel_dense hd x w b hb p q)

/-! ## What a host program computes at an entry -/

/-- A scalar spread over an array reads the scalar everywhere. -/
theorem scalar_to_mat_apply {α : Type} (zc : (⟨0, ![]⟩ : Shape).Idx → α)
    (h0 : (⟨0, ![]⟩ : Shape).BroadcastsInDim ⟨2, ![a, n]⟩ (![] : Fin 0 → Fin 2)) (i : (⟨2, ![a, n]⟩ : Shape).Idx) :
    broadcastInDim ⟨2, ![a, n]⟩ (![] : Fin 0 → Fin 2) h0 zc i = zc ix0 :=
  broadcastInDim_apply _ h0 zc i ix0 fun ax => ax.elim0

/-- The first product plus the bias row spread down the rows, plus the second product, clamped below by a spread scalar,
    at (p, q): the same entry as the kernel's, the bias moved past the second product. -/
theorem ref_conv {d : DotDims ⟨2, ![a, k]⟩ ⟨2, ![k, n]⟩ ⟨2, ![a, n]⟩} (hd : RowsTimesMat d)
    (agg x : FVec Ideal ⟨2, ![a, k]⟩ .f32) (wrel wroot : FVec Ideal ⟨2, ![k, n]⟩ .f32) (b : FVec Ideal ⟨2, ![1, n]⟩ .f32)
    (h2 : (⟨2, ![1, n]⟩ : Shape).BroadcastsInDim ⟨2, ![a, n]⟩ (![0, 1] : Fin 2 → Fin 2))
    (zc : FVec Ideal ⟨0, ![]⟩ .f32) (h0 : (⟨0, ![]⟩ : Shape).BroadcastsInDim ⟨2, ![a, n]⟩ (![] : Fin 0 → Fin 2))
    (p : Fin a) (q : Fin n) :
    maximumf (addf (addf (Host.dotGeneral d none agg wrel) (broadcastInDim ⟨2, ![a, n]⟩ (![0, 1] : Fin 2 → Fin 2) h2 b))
          (Host.dotGeneral d none x wroot))
        (broadcastInDim ⟨2, ![a, n]⟩ (![] : Fin 0 → Fin 2) h0 zc) (ix2 p q)
      = convAt (zc ix0) agg x wrel wroot b p q := by
  refine (congrArg₂ max ?_ (scalar_to_mat_apply zc h0 (ix2 p q)))
  exact (congrArg₂ (· + ·) (congrArg₂ (· + ·) (dotGeneral_rows hd agg wrel p q) (row_to_mat_apply b h2 p q))
    (dotGeneral_rows hd x wroot p q)).trans (add_right_comm _ _ _)

/-- One product plus the bias row spread down the rows, clamped below by a spread scalar, at (p, q). -/
theorem ref_reluDense {d : DotDims ⟨2, ![a, k]⟩ ⟨2, ![k, n]⟩ ⟨2, ![a, n]⟩} (hd : RowsTimesMat d)
    (x : FVec Ideal ⟨2, ![a, k]⟩ .f32) (w : FVec Ideal ⟨2, ![k, n]⟩ .f32) (b : FVec Ideal ⟨2, ![1, n]⟩ .f32)
    (h2 : (⟨2, ![1, n]⟩ : Shape).BroadcastsInDim ⟨2, ![a, n]⟩ (![0, 1] : Fin 2 → Fin 2))
    (zc : FVec Ideal ⟨0, ![]⟩ .f32) (h0 : (⟨0, ![]⟩ : Shape).BroadcastsInDim ⟨2, ![a, n]⟩ (![] : Fin 0 → Fin 2))
    (p : Fin a) (q : Fin n) :
    maximumf (addf (Host.dotGeneral d none x w) (broadcastInDim ⟨2, ![a, n]⟩ (![0, 1] : Fin 2 → Fin 2) h2 b))
        (broadcastInDim ⟨2, ![a, n]⟩ (![] : Fin 0 → Fin 2) h0 zc) (ix2 p q)
      = reluDenseAt (zc ix0) x w b p q :=
  congrArg₂ max (ref_dense hd x w b h2 p q) (scalar_to_mat_apply zc h0 (ix2 p q))

end Cert.LibGraphConv

end
-- ==== Proof.LibPlainRecord.lean ====
/-
  A dimension record between `[a, k]`, `[k, n]` and `[a, n]` whose six lists are those of a plain matrix product
  (contract the left operand's axis 1 with the right operand's axis 0, keep the left operand's axis 0 and the right
  operand's axis 1, no batch axis) says what a plain product says: one contracted axis of extent `k`, the left operand
  read at (the result's row, the contracted coordinate), the right operand at (the contracted coordinate, the result's
  column). A literal record discharges the six list equations by `rfl`.
-/
import proofs.«116513_j1520418422913_2_alg».proof.Proof.LibMatRows

noncomputable section

namespace Cert.LibPlainRecord

open Idealize.ShloMosaic Idealize.ShloMosaic.ValueIdx Cert.LibMatRows

variable {a k n : ℕ} (d : DotDims ⟨2, ![a, k]⟩ ⟨2, ![k, n]⟩ ⟨2, ![a, n]⟩)

/-- A coordinate of an index read at two spellings of one position. -/
theorem coord_val_congr {s : Shape} (i : s.Idx) (p q : ℕ) (hp : p < s.rank) (hq : q < s.rank) (h : p = q) :
    (i ⟨p, hp⟩).val = (i ⟨q, hq⟩).val := by
  subst h; rfl

/-- A record with a plain product's six lists is a plain product: the contraction shape is the one axis of extent `k`;
    on the kept axes the operand index reads the result index (no batch axis comes before them), on the contracted
    axes the contraction index. -/
theorem rowsTimesMat_of_lists (h1 : d.lhsContracting = [1]) (h2 : d.rhsContracting = [0]) (h3 : d.lhsNonContracting = [0])
    (h4 : d.rhsNonContracting = [1]) (h5 : d.lhsBatch = []) (h6 : d.rhsBatch = []) : RowsTimesMat d where
  rank := d.rank_contr.trans (by rw [h1]; rfl)
  size := by
    have hp : 0 < d.lhsContracting.length := by rw [h1]; exact Nat.one_pos
    rw [d.size_contr 0 hp, List.getElem_of_eq h1 hp]
    rfl
  l0 := fun i q => by
    have hb : (0 : Fin 2) ∉ d.lhsBatch := by rw [h5]; exact List.not_mem_nil
    have hn : (0 : Fin 2) ∈ d.lhsNonContracting := by rw [h3]; exact List.mem_singleton.mpr rfl
    unfold DotDims.lhsIdx
    rw [dif_neg hb, dif_pos hn]
    simp only [Fin.val_cast]
    exact coord_val_congr i _ _ _ _ (by rw [h5, h3]; rfl)
  l1 := fun i q => d.lhsIdx_val_of_single h1 i q
  r0 := fun i q => d.rhsIdx_val_of_single h2 i q
  r1 := fun i q => by
    have hb : (1 : Fin 2) ∉ d.rhsBatch := by rw [h6]; exact List.not_mem_nil
    have hn : (1 : Fin 2) ∈ d.rhsNonContracting := by rw [h4]; exact List.mem_singleton.mpr rfl
    unfold DotDims.rhsIdx
    rw [dif_neg hb, dif_pos hn]
    simp only [Fin.val_cast]
    exact coord_val_congr i _ _ _ _ (by rw [h5, h3, h4]; rfl)

end Cert.LibPlainRecord

end
-- ==== Proof.Bodies.lean ====
/-
  What each of the three kernel bodies stores, read at an entry (p, q) of its 4000-row block at the ideal values.

  The first two bodies store  max ((agg · wrel + x · wroot) + b, 0):  the aggregated rows times one weight matrix plus the
  block's own rows times another, plus the bias row, rectified — `convAt` at the zero word.  The third body does the same
  and feeds the result through two more dense layers inside the block: a rectified  h · wc0 + bc0  and then  y · wc1 + bc1
  on the zero-padded last weight matrix and bias.  Changes of float format are the identity at the ideal values, so the
  operands enter as they were loaded.
-/
import proofs.«116513_j1520418422913_2_alg».proof.Proof.Gen.KernelIdeal.Skeleton
import proofs.«116513_j1520418422913_2_alg».proof.Proof.LibGraphConv
import proofs.«116513_j1520418422913_2_alg».proof.Proof.LibPlainRecord
import Idealize.ShloMosaic.Lib.Pipeline.Value
import Idealize.ShloMosaic.Lib.ValueIdx

noncomputable section

namespace Cert.KernelIdeal.Bodies

open Idealize.ShloMosaic Idealize.ShloMosaic.ValueIdx Cert.KernelIdeal Cert.KernelIdeal.Gen
open Cert.LibMatRows Cert.LibDenseLayers Cert.LibGraphConv

/-- The zero word every rectifier of both programs clamps against, as an extended real. -/
abbrev zw : EReal := Ideal.ofBits .f32 0x00000000#32

/-- The blocks' matrix products are plain products: rows of the left operand against columns of the right. -/
theorem plain : RowsTimesMat dot_S4000x128_S128x128_S4000x128_1_0_0_1_n_n :=
  Cert.LibPlainRecord.rowsTimesMat_of_lists _ rfl rfl rfl rfl rfl rfl

/-- The first layer's body at (p, q). -/
theorem pay0_apply (v0 v3 : Vec Ideal S4000x128 .f32) (v5 v7 : Vec Ideal S128x128 .f32) (v12 : Vec Ideal S1x128 .f32)
    (p : Fin 4000) (q : Fin 128) :
    k0_pay1 (F := Ideal) v0 v3 v5 v7 v12 (ix2 p q) = convAt zw v0 v3 v5 v7 v12 p q := by
  unfold k0_pay1
  simp only [shapeCast_self]
  exact kernel_conv plain (truncf .bf16 v0 bitsLt_bf16_f32) (truncf .bf16 v3 bitsLt_bf16_f32) (truncf .bf16 v5 bitsLt_bf16_f32)
    (truncf .bf16 v7 bitsLt_bf16_f32) v12 broadcasts_S1x128_S4000x128 zw p q

/-- The second layer's body at (p, q): its own rows arrive in the narrow format, which changes nothing here. -/
theorem pay1_apply (v0 : Vec Ideal S4000x128 .f32) (v3 : Vec Ideal S4000x128 .bf16) (v5 v7 : Vec Ideal S128x128 .f32)
    (v12 : Vec Ideal S1x128 .f32) (p : Fin 4000) (q : Fin 128) :
    k1_pay1 (F := Ideal) v0 v3 v5 v7 v12 (ix2 p q) = convAt zw v0 v3 v5 v7 v12 p q := by
  unfold k1_pay1
  simp only [shapeCast_self]
  exact kernel_conv plain (truncf .bf16 v0 bitsLt_bf16_f32) v3 (truncf .bf16 v5 bitsLt_bf16_f32)
    (truncf .bf16 v7 bitsLt_bf16_f32) v12 broadcasts_S1x128_S4000x128 zw p q

/-- The third body at (p, q): the graph layer, then the rectified dense layer, then the last dense layer. -/
theorem pay2_apply (v0 : Vec Ideal S4000x128 .f32) (v3 : Vec Ideal S4000x128 .bf16) (v5 v7 : Vec Ideal S128x128 .f32)
    (v12 : Vec Ideal S1x128 .f32) (v20 : Vec Ideal S128x128 .f32) (v23 : Vec Ideal S1x128 .f32) (v31 : Vec Ideal S128x128 .f32)
    (v35 : Vec Ideal S1x128 .f32) (p : Fin 4000) (q : Fin 128) :
    k2_pay1 (F := Ideal) (k2_pay2 (F := Ideal) v0 v3 v5 v7 v12 v20 v23 v31) v35 (ix2 p q)
      = denseAt (reluDense zw (conv zw v0 v3 v5 v7 v12) v20 v23) v31 v35 p q := by
  unfold k2_pay1 k2_pay2
  simp only [shapeCast_self]
  refine (kernel_dense plain _ (truncf .bf16 v31 bitsLt_bf16_f32) v35 broadcasts_S1x128_S4000x128 p q).trans ?_
  refine denseAt_congr (fun j => ?_) (fun _ => rfl) rfl
  refine (kernel_reluDense plain _ (truncf .bf16 v20 bitsLt_bf16_f32) v23 broadcasts_S1x128_S4000x128 zw p j).trans ?_
  refine reluDenseAt_congr (fun j' => ?_) (fun _ => rfl) rfl
  exact kernel_conv plain (truncf .bf16 v0 bitsLt_bf16_f32) v3 (truncf .bf16 v5 bitsLt_bf16_f32)
    (truncf .bf16 v7 bitsLt_bf16_f32) v12 broadcasts_S1x128_S4000x128 zw p j'

end Cert.KernelIdeal.Bodies

end
-- ==== Proof.Layer0.lean ====
/-
  The first layer's output array after its 25 grid points, as one function of the arrays the region is entered with.

  Point t handles rows 4000·t … 4000·t + 3999: its blocks of the aggregated array and of the node array are those rows,
  its blocks of the two weight matrices and of the bias row are the whole arrays, and it writes back the layer's entries
  for those rows. Entry (p, q) of a block only reads row p of the two row blocks, which is row 4000·t + p of the whole
  arrays, so what the point writes is the block of ONE whole-array function, `conv`; the 25 blocks tile the 100000 rows.
-/
import proofs.«116513_j1520418422913_2_alg».proof.Proof.Gen.KernelIdeal.Frame
import proofs.«116513_j1520418422913_2_alg».proof.Proof.Bodies
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.KernelIdeal.Bodies Cert.LibGraphConv

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region is entered with. -/
def G (c : Dev nD) : S100000x128.Idx → EReal :=
  conv zw (V c main_v13 : S100000x128.Idx → EReal) (V c main_arg0 : S100000x128.Idx → EReal)
    (V c main_arg2 : S128x128.Idx → EReal) (V c main_arg4 : S128x128.Idx → EReal) (V c main_v14 : S1x128.Idx → EReal)

/-- The printed index maps over the grid: the three row windows sit at block (t, 0), the others at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row x of the aggregated block at point t is row 4000·t + x of the aggregated array. -/
theorem rows_agg (c : Dev nD) (t : Fin cfg0.N) (x : S4000x128.Idx) (k : S100000x128.Idx)
    (hk0 : (k 0).val = 4000 * t.val + (x 0).val) (hk1 : (k 1).val = (x 1).val) :
    (iblk0 V c 0 t : Vec Ideal S4000x128 .f32) x = (V c main_v13 : S100000x128.Idx → EReal) k := by
  obtain ⟨e0, e1, -⟩ := idx_facts t
  unfold iblk0
  rw [View.read_apply]
  show V c main_v13 _ = V c main_v13 _
  congr 1
  funext a
  apply Fin.ext
  match a with
  | ⟨0, _⟩ => show win0_0.index t (0 : Fin 2) * 4000 + 1 * (x 0).val = (k 0).val; rw [e0, hk0]; omega
  | ⟨1, _⟩ => show win0_0.index t (1 : Fin 2) * 128 + 1 * (x 1).val = (k 1).val; rw [e1, hk1]; omega

/-- Row x of the node block at point t is row 4000·t + x of the node array. -/
theorem rows_x (c : Dev nD) (t : Fin cfg0.N) (x : S4000x128.Idx) (k : S100000x128.Idx)
    (hk0 : (k 0).val = 4000 * t.val + (x 0).val) (hk1 : (k 1).val = (x 1).val) :
    (iblk0 V c 1 t : Vec Ideal S4000x128 .f32) x = (V c main_arg0 : S100000x128.Idx → EReal) k := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 4000 + 1 * (x 0).val = (k 0).val; rw [e0, hk0]; omega
  | ⟨1, _⟩ => show win0_1.index t (1 : Fin 2) * 128 + 1 * (x 1).val = (k 1).val; rw [e1, hk1]; omega

/-- The first weight block is the whole matrix. -/
theorem whole_wrel (c : Dev nD) (t : Fin cfg0.N) (x : S128x128.Idx) :
    (iblk0 V c 2 t : Vec Ideal S128x128 .f32) x = (V c main_arg2 : S128x128.Idx → EReal) x := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- The bias block is the whole bias row. -/
theorem whole_b (c : Dev nD) (t : Fin cfg0.N) (x : S1x128.Idx) :
    (iblk0 V c 3 t : Vec Ideal S1x128 .f32) x = (V c main_v14 : S1x128.Idx → EReal) x := by
  obtain ⟨-, -, -, -, -, -, e0, e1, -⟩ := idx_facts t
  unfold iblk0
  rw [View.read_apply]
  show V c main_v14 _ = V c main_v14 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 128 + 1 * (x 1).val = (x 1).val; rw [e1]; omega

/-- The second weight block is the whole matrix. -/
theorem whole_wroot (c : Dev nD) (t : Fin cfg0.N) (x : S128x128.Idx) :
    (iblk0 V c 4 t : Vec Ideal S128x128 .f32) x = (V c main_arg4 : S128x128.Idx → EReal) x := by
  obtain ⟨-, -, -, -, -, -, -, -, e0, e1, -⟩ := idx_facts t
  unfold iblk0
  rw [View.read_apply]
  show V c main_arg4 _ = V c main_arg4 _
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- What point t writes back is block t of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  obtain ⟨-, -, -, -, -, -, -, -, -, -, e0, e1⟩ := idx_facts t
  have hN : t.val < 25 := Nat.lt_of_lt_of_eq t.isLt (show cfg0.N = 25 from N_0)
  have hp : p.val < 4000 := p.isLt
  rw [View.read_apply]
  have hemb : ((cfg0.win 5).blk t).view.emb (ix2 p q) = (ix2 (⟨4000 * t.val + p.val, by omega⟩ : Fin 100000) q : S100000x128.Idx) := by
    funext a
    apply Fin.ext
    match a with
    | ⟨0, _⟩ => show win0_5.index t (0 : Fin 2) * 4000 + 1 * p.val = 4000 * t.val + p.val; rw [e0]; omega
    | ⟨1, _⟩ => show win0_5.index t (1 : Fin 2) * 128 + 1 * q.val = q.val; rw [e1]; omega
  rw [hemb]
  refine (pay0_apply _ _ _ _ _ p q).trans ?_
  unfold G
  rw [conv_apply]
  exact convAt_congr (fun j => rows_agg V c t _ _ rfl rfl) (fun j => rows_x V c t _ _ rfl rfl)
    (fun j => whole_wrel V c t _) (fun j => whole_wroot V c t _) (whole_b V c t _)

/-- An index of the array is in point t's block iff each coordinate is in the block's range on its axis. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v15).slice (win0_5.rect t)).set ↔ _
  rw [View.set_slice_whole, Rect.mem_set_unit]
  exact Iff.rfl

/-- Row r lies in the block of point r / 4000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_5 _, ?_⟩
  rw [mem_blk]
  obtain ⟨-, -, -, -, -, -, -, -, -, -, e0, e1⟩ := idx_facts ⟨(i 0).val / 4000, by rw [hN]; omega⟩
  intro a
  match a with
  | ⟨0, _⟩ => show win0_5.index _ (0 : Fin 2) * 4000 ≤ (i 0).val ∧ (i 0).val < win0_5.index _ (0 : Fin 2) * 4000 + 4000; rw [e0]; show (i 0).val / 4000 * 4000 ≤ (i 0).val ∧ (i 0).val < (i 0).val / 4000 * 4000 + 4000; omega
  | ⟨1, _⟩ => show win0_5.index _ (1 : Fin 2) * 128 ≤ (i 1).val ∧ (i 1).val < win0_5.index _ (1 : Fin 2) * 128 + 128; rw [e1]; omega

/-- The output array after the region: the layer of the arrays it was entered with. -/
theorem final (c : Dev nD) : (dat0 V c).arrAt 5 cfg0.N = G V c :=
  (dat0 V c).arrAt_eq_of_cover 5 (G V c) (fun t _ => flushed_eq V c t) cover

/-- The layer depends on the entry contents only through the five arrays the region reads. -/
theorem G_of (c : Dev nD) {agg x : S100000x128.Idx → EReal} {wr wo : S128x128.Idx → EReal} {b : S1x128.Idx → EReal}
    (h0 : (V c main_v13 : S100000x128.Idx → EReal) = agg) (h1 : (V c main_arg0 : S100000x128.Idx → EReal) = x)
    (h2 : (V c main_arg2 : S128x128.Idx → EReal) = wr) (h4 : (V c main_arg4 : S128x128.Idx → EReal) = wo)
    (h3 : (V c main_v14 : S1x128.Idx → EReal) = b) : G V c = conv zw agg x wr wo b := by
  subst h0 h1 h2 h4 h3
  rfl

end Cert.KernelIdeal.Layer0

end
-- ==== Proof.Layer1.lean ====
/-
  The second layer's output array after its 25 grid points, as one function of the arrays the region is entered with.

  Point t handles rows 4000·t … 4000·t + 3999: its blocks of the aggregated array and of the previous layer's output (kept in the narrow format, which is the same
  extended real) are those rows,
  its blocks of the two weight matrices and of the bias row are the whole arrays, and it writes back the layer's entries
  for those rows. Entry (p, q) of a block only reads row p of the two row blocks, which is row 4000·t + p of the whole
  arrays, so what the point writes is the block of ONE whole-array function, `conv`; the 25 blocks tile the 100000 rows.
-/
import proofs.«116513_j1520418422913_2_alg».proof.Proof.Gen.KernelIdeal.Frame
import proofs.«116513_j1520418422913_2_alg».proof.Proof.Bodies
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.KernelIdeal.Bodies Cert.LibGraphConv

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region is entered with. -/
def G (c : Dev nD) : S100000x128.Idx → EReal :=
  conv zw (V c main_v26 : S100000x128.Idx → EReal) (V c main_v15 : S100000x128.Idx → EReal)
    (V c main_arg5 : S128x128.Idx → EReal) (V c main_arg7 : S128x128.Idx → EReal) (V c main_v27 : S1x128.Idx → EReal)

/-- The printed index maps over the grid: the three row windows sit at block (t, 0), the others at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row x of the aggregated block at point t is row 4000·t + x of the aggregated array. -/
theorem rows_agg (c : Dev nD) (t : Fin cfg1.N) (x : S4000x128.Idx) (k : S100000x128.Idx)
    (hk0 : (k 0).val = 4000 * t.val + (x 0).val) (hk1 : (k 1).val = (x 1).val) :
    (iblk1 V c 0 t : Vec Ideal S4000x128 .f32) x = (V c main_v26 : S100000x128.Idx → EReal) k := by
  obtain ⟨e0, e1, -⟩ := idx_facts t
  unfold iblk1
  rw [View.read_apply]
  show V c main_v26 _ = V c main_v26 _
  congr 1
  funext a
  apply Fin.ext
  match a with
  | ⟨0, _⟩ => show win1_0.index t (0 : Fin 2) * 4000 + 1 * (x 0).val = (k 0).val; rw [e0, hk0]; omega
  | ⟨1, _⟩ => show win1_0.index t (1 : Fin 2) * 128 + 1 * (x 1).val = (k 1).val; rw [e1, hk1]; omega

/-- Row x of the node block at point t is row 4000·t + x of the node array. -/
theorem rows_x (c : Dev nD) (t : Fin cfg1.N) (x : S4000x128.Idx) (k : S100000x128.Idx)
    (hk0 : (k 0).val = 4000 * t.val + (x 0).val) (hk1 : (k 1).val = (x 1).val) :
    (iblk1 V c 1 t : Vec Ideal S4000x128 .bf16) x = (V c main_v15 : S100000x128.Idx → EReal) k := by
  obtain ⟨-, -, e0, e1, -⟩ := idx_facts t
  unfold iblk1
  rw [View.read_apply]
  show V c main_v15 _ = V c main_v15 _
  congr 1
  funext a
  apply Fin.ext
  match a with
  | ⟨0, _⟩ => show win1_1.index t (0 : Fin 2) * 4000 + 1 * (x 0).val = (k 0).val; rw [e0, hk0]; omega
  | ⟨1, _⟩ => show win1_1.index t (1 : Fin 2) * 128 + 1 * (x 1).val = (k 1).val; rw [e1, hk1]; omega

/-- The first weight block is the whole matrix. -/
theorem whole_wrel (c : Dev nD) (t : Fin cfg1.N) (x : S128x128.Idx) :
    (iblk1 V c 2 t : Vec Ideal S128x128 .f32) x = (V c main_arg5 : S128x128.Idx → EReal) x := by
  obtain ⟨-, -, -, -, e0, e1, -⟩ := idx_facts t
  unfold iblk1
  rw [View.read_apply]
  show V c main_arg5 _ = V c main_arg5 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The bias block is the whole bias row. -/
theorem whole_b (c : Dev nD) (t : Fin cfg1.N) (x : S1x128.Idx) :
    (iblk1 V c 3 t : Vec Ideal S1x128 .f32) x = (V c main_v27 : S1x128.Idx → EReal) x := by
  obtain ⟨-, -, -, -, -, -, e0, e1, -⟩ := idx_facts t
  unfold iblk1
  rw [View.read_apply]
  show V c main_v27 _ = V c main_v27 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- The second weight block is the whole matrix. -/
theorem whole_wroot (c : Dev nD) (t : Fin cfg1.N) (x : S128x128.Idx) :
    (iblk1 V c 4 t : Vec Ideal S128x128 .f32) x = (V c main_arg7 : S128x128.Idx → EReal) x := by
  obtain ⟨-, -, -, -, -, -, -, -, e0, e1, -⟩ := idx_facts t
  unfold iblk1
  rw [View.read_apply]
  show V c main_arg7 _ = V c main_arg7 _
  congr 1
  funext a
  apply Fin.ext
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-- What point t writes back is block t of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  obtain ⟨-, -, -, -, -, -, -, -, -, -, e0, e1⟩ := idx_facts t
  have hN : t.val < 25 := Nat.lt_of_lt_of_eq t.isLt (show cfg1.N = 25 from N_1)
  have hp : p.val < 4000 := p.isLt
  rw [View.read_apply]
  have hemb : ((cfg1.win 5).blk t).view.emb (ix2 p q) = (ix2 (⟨4000 * t.val + p.val, by omega⟩ : Fin 100000) q : S100000x128.Idx) := by
    funext a
    apply Fin.ext
    match a with
    | ⟨0, _⟩ => show win1_5.index t (0 : Fin 2) * 4000 + 1 * p.val = 4000 * t.val + p.val; rw [e0]; omega
    | ⟨1, _⟩ => show win1_5.index t (1 : Fin 2) * 128 + 1 * q.val = q.val; rw [e1]; omega
  rw [hemb]
  refine (pay1_apply _ _ _ _ _ p q).trans ?_
  unfold G
  rw [conv_apply]
  exact convAt_congr (fun j => rows_agg V c t _ _ rfl rfl) (fun j => rows_x V c t _ _ rfl rfl)
    (fun j => whole_wrel V c t _) (fun j => whole_wroot V c t _) (whole_b V c t _)

/-- An index of the array is in point t's block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v28).slice (win1_5.rect t)).set ↔ _
  rw [View.set_slice_whole, Rect.mem_set_unit]
  exact Iff.rfl

/-- Row r lies in the block of point r / 4000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_5 _, ?_⟩
  rw [mem_blk]
  obtain ⟨-, -, -, -, -, -, -, -, -, -, e0, e1⟩ := idx_facts ⟨(i 0).val / 4000, by rw [hN]; omega⟩
  intro a
  match a with
  | ⟨0, _⟩ => show win1_5.index _ (0 : Fin 2) * 4000 ≤ (i 0).val ∧ (i 0).val < win1_5.index _ (0 : Fin 2) * 4000 + 4000; rw [e0]; show (i 0).val / 4000 * 4000 ≤ (i 0).val ∧ (i 0).val < (i 0).val / 4000 * 4000 + 4000; omega
  | ⟨1, _⟩ => show win1_5.index _ (1 : Fin 2) * 128 ≤ (i 1).val ∧ (i 1).val < win1_5.index _ (1 : Fin 2) * 128 + 128; rw [e1]; omega

/-- The output array after the region: the layer of the arrays it was entered with. -/
theorem final (c : Dev nD) : (dat1 V c).arrAt 5 cfg1.N = G V c :=
  (dat1 V c).arrAt_eq_of_cover 5 (G V c) (fun t _ => flushed_eq V c t) cover

/-- The layer depends on the entry contents only through the five arrays the region reads. -/
theorem G_of (c : Dev nD) {agg x : S100000x128.Idx → EReal} {wr wo : S128x128.Idx → EReal} {b : S1x128.Idx → EReal}
    (h0 : (V c main_v26 : S100000x128.Idx → EReal) = agg) (h1 : (V c main_v15 : S100000x128.Idx → EReal) = x)
    (h2 : (V c main_arg5 : S128x128.Idx → EReal) = wr) (h4 : (V c main_arg7 : S128x128.Idx → EReal) = wo)
    (h3 : (V c main_v27 : S1x128.Idx → EReal) = b) : G V c = conv zw agg x wr wo b := by
  subst h0 h1 h2 h4 h3
  rfl

end Cert.KernelIdeal.Layer1

end
-- ==== Proof.Layer2.lean ====
/-
  The third region's output array after its 25 grid points, as one function of the arrays the region is entered with.

  Point t handles rows 4000·t … 4000·t + 3999. Its body computes the third graph layer on those rows and, without leaving
  the block, the rectified dense layer and the last dense layer on the zero-padded weights. Each of the three stages
  reads, at entry (p, q), only row p of the stage before, so the block written back is the block of ONE whole-array
  function: `dense (reluDense (conv …))` of the arrays the region is entered with; the 25 blocks tile the 100000 rows.
-/
import proofs.«116513_j1520418422913_2_alg».proof.Proof.Gen.KernelIdeal.Frame
import proofs.«116513_j1520418422913_2_alg».proof.Proof.Bodies
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.KernelIdeal.Bodies Cert.LibGraphConv Cert.LibDenseLayers

variable (V : (c : Dev nD) → (b : Ref sig .tc) → Buf (Elt Ideal) ((c : Thread nD τ).loc b))

theorem hz : (![0, 0] : Fin 2 → Nat) = fun _ => 0 := funext fun a => by fin_cases a <;> rfl

/-- The graph layer, the rectified dense layer and the last dense layer of the arrays the region is entered with. -/
def G (c : Dev nD) : S100000x128.Idx → EReal :=
  dense (reluDense zw
      (conv zw (V c main_v39 : S100000x128.Idx → EReal) (V c main_v28 : S100000x128.Idx → EReal)
        (V c main_arg8 : S128x128.Idx → EReal) (V c main_arg10 : S128x128.Idx → EReal) (V c main_v42 : S1x128.Idx → EReal))
      (V c main_arg11 : S128x128.Idx → EReal) (V c main_v43 : S1x128.Idx → EReal))
    (V c main_v40 : S128x128.Idx → EReal) (V c main_v44 : S1x128.Idx → EReal)

/-- The printed index maps over the grid: the three row windows sit at block (t, 0), the others at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row x of the aggregated block at point t is row 4000·t + x of the aggregated array. -/
theorem rows_agg (c : Dev nD) (t : Fin cfg2.N) (x : S4000x128.Idx) (k : S100000x128.Idx)
    (hk0 : (k 0).val = 4000 * t.val + (x 0).val) (hk1 : (k 1).val = (x 1).val) :
    (iblk2 V c 0 t : Vec Ideal S4000x128 .f32) x = (V c main_v39 : S100000x128.Idx → EReal) k := by
  obtain ⟨e0, e1, -⟩ := idx_facts t
  unfold iblk2
  rw [View.read_apply]
  show V c main_v39 _ = V c main_v39 _
  congr 1
  funext a
  apply Fin.ext
  match a with
  | ⟨0, _⟩ => show win2_0.index t (0 : Fin 2) * 4000 + 1 * (x 0).val = (k 0).val; rw [e0, hk0]; omega
  | ⟨1, _⟩ => show win2_0.index t (1 : Fin 2) * 128 + 1 * (x 1).val = (k 1).val; rw [e1, hk1]; omega

/-- Row x of the previous layer's block at point t is row 4000·t + x of that layer's output. -/
theorem rows_h (c : Dev nD) (t : Fin cfg2.N) (x : S4000x128.Idx) (k : S100000x128.Idx)
    (hk0 : (k 0).val = 4000 * t.val + (x 0).val) (hk1 : (k 1).val = (x 1).val) :
    (iblk2 V c 1 t : Vec Ideal S4000x128 .bf16) x = (V c main_v28 : S100000x128.Idx → EReal) k := by
  obtain ⟨-, -, e0, e1, -⟩ := idx_facts t
  unfold iblk2
  rw [View.read_apply]
  show V c main_v28 _ = V c main_v28 _
  congr 1
  funext a
  apply Fin.ext
  match a with
  | ⟨0, _⟩ => show win2_1.index t (0 : Fin 2) * 4000 + 1 * (x 0).val = (k 0).val; rw [e0, hk0]; omega
  | ⟨1, _⟩ => show win2_1.index t (1 : Fin 2) * 128 + 1 * (x 1).val = (k 1).val; rw [e1, hk1]; omega

/-- The first weight block is the whole matrix. -/
theorem whole_wrel (c : Dev nD) (t : Fin cfg2.N) (x : S128x128.Idx) :
    (iblk2 V c 2 t : Vec Ideal S128x128 .f32) x = (V c main_arg8 : S128x128.Idx → EReal) x := by
  obtain ⟨-, -, -, -, e0, e1, -⟩ := idx_facts t
  unfold iblk2
  rw [View.read_apply]
  show V c main_arg8 _ = V c main_arg8 _
  congr 1
  funext a
  apply Fin.ext
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

/-- The graph layer's bias block is the whole bias row. -/
theorem whole_b (c : Dev nD) (t : Fin cfg2.N) (x : S1x128.Idx) :
    (iblk2 V c 3 t : Vec Ideal S1x128 .f32) x = (V c main_v42 : S1x128.Idx → EReal) x := by
  obtain ⟨-, -, -, -, -, -, e0, e1, -⟩ := idx_facts t
  unfold iblk2
  rw [View.read_apply]
  show V c main_v42 _ = V c main_v42 _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- The second weight block is the whole matrix. -/
theorem whole_wroot (c : Dev nD) (t : Fin cfg2.N) (x : S128x128.Idx) :
    (iblk2 V c 4 t : Vec Ideal S128x128 .f32) x = (V c main_arg10 : S128x128.Idx → EReal) x := by
  obtain ⟨-, -, -, -, -, -, -, -, e0, e1, -⟩ := idx_facts t
  unfold iblk2
  rw [View.read_apply]
  show V c main_arg10 _ = V c main_arg10 _
  congr 1
  funext a
  apply Fin.ext
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

/-- The first dense layer's weight block is the whole matrix. -/
theorem whole_wc0 (c : Dev nD) (t : Fin cfg2.N) (x : S128x128.Idx) :
    (iblk2 V c 5 t : Vec Ideal S128x128 .f32) x = (V c main_arg11 : S128x128.Idx → EReal) x := by
  obtain ⟨-, -, -, -, -, -, -, -, -, -, e0, e1, -⟩ := idx_facts t
  unfold iblk2
  rw [View.read_apply]
  show V c main_arg11 _ = V c main_arg11 _
  congr 1
  funext a
  apply Fin.ext
  match a with
  | ⟨0, _⟩ => show win2_5.index t (0 : Fin 2) * 128 + 1 * (x 0).val = (x 0).val; rw [e0]; omega
  | ⟨1, _⟩ => show win2_5.index t (1 : Fin 2) * 128 + 1 * (x 1).val = (x 1).val; rw [e1]; omega

/-- The first dense layer's bias block is the whole bias row. -/
theorem whole_bc0 (c : Dev nD) (t : Fin cfg2.N) (x : S1x128.Idx) :
    (iblk2 V c 6 t : Vec Ideal S1x128 .f32) x = (V c main_v43 : S1x128.Idx → EReal) x := by
  obtain ⟨-, -, -, -, -, -, -, -, -, -, -, -, e0, e1, -⟩ := idx_facts t
  unfold iblk2
  rw [View.read_apply]
  show V c main_v43 _ = V c main_v43 _
  congr 1
  funext a
  apply Fin.ext
  match a with
  | ⟨0, _⟩ => show win2_6.index t (0 : Fin 2) * 1 + 1 * (x 0).val = (x 0).val; rw [e0]; omega
  | ⟨1, _⟩ => show win2_6.index t (1 : Fin 2) * 128 + 1 * (x 1).val = (x 1).val; rw [e1]; omega

/-- The last dense layer's (padded) weight block is the whole matrix. -/
theorem whole_wc1 (c : Dev nD) (t : Fin cfg2.N) (x : S128x128.Idx) :
    (iblk2 V c 7 t : Vec Ideal S128x128 .f32) x = (V c main_v40 : S128x128.Idx → EReal) x := by
  obtain ⟨-, -, -, -, -, -, -, -, -, -, -, -, -, -, e0, e1, -⟩ := idx_facts t
  unfold iblk2
  rw [View.read_apply]
  show V c main_v40 _ = V c main_v40 _
  congr 1
  funext a
  apply Fin.ext
  match a with
  | ⟨0, _⟩ => show win2_7.index t (0 : Fin 2) * 128 + 1 * (x 0).val = (x 0).val; rw [e0]; omega
  | ⟨1, _⟩ => show win2_7.index t (1 : Fin 2) * 128 + 1 * (x 1).val = (x 1).val; rw [e1]; omega

/-- The last dense layer's (padded) bias block is the whole bias row. -/
theorem whole_bc1 (c : Dev nD) (t : Fin cfg2.N) (x : S1x128.Idx) :
    (iblk2 V c 8 t : Vec Ideal S1x128 .f32) x = (V c main_v44 : S1x128.Idx → EReal) x := by
  obtain ⟨-, -, -, -, -, -, -, -, -, -, -, -, -, -, -, -, e0, e1, -⟩ := idx_facts t
  unfold iblk2
  rw [View.read_apply]
  show V c main_v44 _ = V c main_v44 _
  congr 1
  funext a
  apply Fin.ext
  match a with
  | ⟨0, _⟩ => show win2_8.index t (0 : Fin 2) * 1 + 1 * (x 0).val = (x 0).val; rw [e0]; omega
  | ⟨1, _⟩ => show win2_8.index t (1 : Fin 2) * 128 + 1 * (x 1).val = (x 1).val; rw [e1]; omega

/-- What point t writes back is block t of the three stages of the whole arrays. -/
theorem flushed_eq (c : Dev nD) (t : Fin cfg2.N) :
    (dat2 V c).flushed 9 t = ((cfg2.win 9).blk t).view.read (Elt Ideal) (G V c) := by
  show (cfg2.win 9).cut (grid2.coords t) ((dat2 V c).after 9 t) = _
  rw [after2_9]
  unfold out2_9
  rw [View.canon_unit_zero hz]
  simp only [View.ld_unit_zero (S := S4000x128) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  obtain ⟨-, -, -, -, -, -, -, -, -, -, -, -, -, -, -, -, -, -, e0, e1⟩ := idx_facts t
  have hN : t.val < 25 := Nat.lt_of_lt_of_eq t.isLt (show cfg2.N = 25 from N_2)
  have hp : p.val < 4000 := p.isLt
  rw [View.read_apply]
  have hemb : ((cfg2.win 9).blk t).view.emb (ix2 p q) = (ix2 (⟨4000 * t.val + p.val, by omega⟩ : Fin 100000) q : S100000x128.Idx) := by
    funext a
    apply Fin.ext
    match a with
    | ⟨0, _⟩ => show win2_9.index t (0 : Fin 2) * 4000 + 1 * p.val = 4000 * t.val + p.val; rw [e0]; omega
    | ⟨1, _⟩ => show win2_9.index t (1 : Fin 2) * 128 + 1 * q.val = q.val; rw [e1]; omega
  rw [hemb]
  refine (pay2_apply _ _ _ _ _ _ _ _ _ p q).trans ?_
  unfold G
  show _ = denseAt _ _ _ (⟨4000 * t.val + p.val, by omega⟩ : Fin 100000) q
  refine denseAt_congr (fun j => ?_) (fun j => whole_wc1 V c t _) (whole_bc1 V c t _)
  rw [reluDense_apply, reluDense_apply]
  refine reluDenseAt_congr (fun j' => ?_) (fun j' => whole_wc0 V c t _) (whole_bc0 V c t _)
  rw [conv_apply, conv_apply]
  exact convAt_congr (fun j'' => rows_agg V c t _ _ rfl rfl) (fun j'' => rows_h V c t _ _ rfl rfl)
    (fun j'' => whole_wrel V c t _) (fun j'' => whole_wroot V c t _) (whole_b V c t _)

/-- An index of the array is in point t's block iff each coordinate is in the block's range on its axis. -/
theorem mem_blk (t : Fin cfg2.N) (i : S100000x128.Idx) :
    i ∈ ((cfg2.win 9).blk t).view.set ↔ ∀ a : Fin 2, win2_9.index t a * S4000x128.size a ≤ (i a).val ∧ (i a).val < win2_9.index t a * S4000x128.size a + S4000x128.size a := by
  show i ∈ ((View.whole main_v45).slice (win2_9.rect t)).set ↔ _
  rw [View.set_slice_whole, Rect.mem_set_unit]
  exact Iff.rfl

/-- Row r lies in the block of point r / 4000. -/
theorem cover (i : S100000x128.Idx) : ∃ t : Fin cfg2.N, (cfg2.win 9).flush t = true ∧ i ∈ ((cfg2.win 9).blk t).view.set := by
  have hi0 : (i 0).val < 100000 := (i 0).isLt
  have hi1 : (i 1).val < 128 := (i 1).isLt
  have hN : cfg2.N = 25 := N_2
  refine ⟨⟨(i 0).val / 4000, by rw [hN]; omega⟩, flush2_9 _, ?_⟩
  rw [mem_blk]
  obtain ⟨-, -, -, -, -, -, -, -, -, -, -, -, -, -, -, -, -, -, e0, e1⟩ := idx_facts ⟨(i 0).val / 4000, by rw [hN]; omega⟩
  intro a
  match a with
  | ⟨0, _⟩ => show win2_9.index _ (0 : Fin 2) * 4000 ≤ (i 0).val ∧ (i 0).val < win2_9.index _ (0 : Fin 2) * 4000 + 4000; rw [e0]; show (i 0).val / 4000 * 4000 ≤ (i 0).val ∧ (i 0).val < (i 0).val / 4000 * 4000 + 4000; omega
  | ⟨1, _⟩ => show win2_9.index _ (1 : Fin 2) * 128 ≤ (i 1).val ∧ (i 1).val < win2_9.index _ (1 : Fin 2) * 128 + 128; rw [e1]; omega

/-- The output array after the region: the three stages of the arrays it was entered with. -/
theorem final (c : Dev nD) : (dat2 V c).arrAt 9 cfg2.N = G V c :=
  (dat2 V c).arrAt_eq_of_cover 9 (G V c) (fun t _ => flushed_eq V c t) cover

/-- The three stages depend on the entry contents only through the nine arrays the region reads. -/
theorem G_of (c : Dev nD) {agg x : S100000x128.Idx → EReal} {wr wo wc0 wc1 : S128x128.Idx → EReal} {b bc0 bc1 : S1x128.Idx → EReal}
    (h0 : (V c main_v39 : S100000x128.Idx → EReal) = agg) (h1 : (V c main_v28 : S100000x128.Idx → EReal) = x)
    (h2 : (V c main_arg8 : S128x128.Idx → EReal) = wr) (h4 : (V c main_arg10 : S128x128.Idx → EReal) = wo)
    (h3 : (V c main_v42 : S1x128.Idx → EReal) = b) (h5 : (V c main_arg11 : S128x128.Idx → EReal) = wc0)
    (h6 : (V c main_v43 : S1x128.Idx → EReal) = bc0) (h7 : (V c main_v40 : S128x128.Idx → EReal) = wc1)
    (h8 : (V c main_v44 : S1x128.Idx → EReal) = bc1) :
    G V c = dense (reluDense zw (conv zw agg x wr wo b) wc0 bc0) wc1 bc1 := by
  subst h0 h1 h2 h4 h3 h5 h6 h7 h8
  rfl

end Cert.KernelIdeal.Layer2

end
-- ==== Proof.Net.lean ====
/-
  The network both programs compute, as one function of the argument arrays over the extended reals.

  Three graph-convolution layers on a graph of 100000 nodes with 128 features,
      h' = max ((A h) · w_rel + h · w_root + b, z),
  where `A` sends a node array to the array of sums of its rows over each node's incoming edges (it depends on the edge
  list only, and enters here as a parameter: both programs apply the same gather and scatter-add, so it is never opened),
  then a rectified dense layer to 128 features and a dense layer to 32. A bias vector enters each layer as a row.
-/
import proofs.«116513_j1520418422913_2_alg».proof.Proof.LibGraphConv

noncomputable section

namespace Cert.Net

open Idealize.ShloMosaic Idealize.ShloMosaic.ValueIdx Cert.LibDenseLayers Cert.LibGraphConv

/-- A vector as the one row of a matrix. -/
def row {n : ℕ} (v : (⟨1, ![n]⟩ : Shape).Idx → EReal) : (⟨2, ![1, n]⟩ : Shape).Idx → EReal := fun i => v (ix1 (i 1))

theorem row_apply {n : ℕ} (v : (⟨1, ![n]⟩ : Shape).Idx → EReal) (u : Fin 1) (j : Fin n) : row v (ix2 u j) = v (ix1 j) := rfl

/-- The three graph layers: the node features after each. -/
def hidden (A : ((⟨2, ![100000, 128]⟩ : Shape).Idx → EReal) → (⟨2, ![100000, 128]⟩ : Shape).Idx → EReal) (z : EReal)
    (x : (⟨2, ![100000, 128]⟩ : Shape).Idx → EReal)
    (wr0 : (⟨2, ![128, 128]⟩ : Shape).Idx → EReal) (b0 : (⟨1, ![128]⟩ : Shape).Idx → EReal) (wo0 : (⟨2, ![128, 128]⟩ : Shape).Idx → EReal)
    (wr1 : (⟨2, ![128, 128]⟩ : Shape).Idx → EReal) (b1 : (⟨1, ![128]⟩ : Shape).Idx → EReal) (wo1 : (⟨2, ![128, 128]⟩ : Shape).Idx → EReal)
    (wr2 : (⟨2, ![128, 128]⟩ : Shape).Idx → EReal) (b2 : (⟨1, ![128]⟩ : Shape).Idx → EReal) (wo2 : (⟨2, ![128, 128]⟩ : Shape).Idx → EReal) :
    (⟨2, ![100000, 128]⟩ : Shape).Idx → EReal :=
  let h0 := conv z (A x) x wr0 wo0 (row b0)
  let h1 := conv z (A h0) h0 wr1 wo1 (row b1)
  conv z (A h1) h1 wr2 wo2 (row b2)

/-- The whole network: the graph layers, then the rectified dense layer, then the dense layer to 32 outputs. -/
def net (A : ((⟨2, ![100000, 128]⟩ : Shape).Idx → EReal) → (⟨2, ![100000, 128]⟩ : Shape).Idx → EReal) (z : EReal)
    (x : (⟨2, ![100000, 128]⟩ : Shape).Idx → EReal)
    (wr0 : (⟨2, ![128, 128]⟩ : Shape).Idx → EReal) (b0 : (⟨1, ![128]⟩ : Shape).Idx → EReal) (wo0 : (⟨2, ![128, 128]⟩ : Shape).Idx → EReal)
    (wr1 : (⟨2, ![128, 128]⟩ : Shape).Idx → EReal) (b1 : (⟨1, ![128]⟩ : Shape).Idx → EReal) (wo1 : (⟨2, ![128, 128]⟩ : Shape).Idx → EReal)
    (wr2 : (⟨2, ![128, 128]⟩ : Shape).Idx → EReal) (b2 : (⟨1, ![128]⟩ : Shape).Idx → EReal) (wo2 : (⟨2, ![128, 128]⟩ : Shape).Idx → EReal)
    (wc0 : (⟨2, ![128, 128]⟩ : Shape).Idx → EReal) (bc0 : (⟨1, ![128]⟩ : Shape).Idx → EReal)
    (wc1 : (⟨2, ![128, 32]⟩ : Shape).Idx → EReal) (bc1 : (⟨1, ![32]⟩ : Shape).Idx → EReal) :
    (⟨2, ![100000, 32]⟩ : Shape).Idx → EReal :=
  dense (reluDense z (hidden A z x wr0 b0 wo0 wr1 b1 wo1 wr2 b2 wo2) wc0 (row bc0)) wc1 (row bc1)

end Cert.Net

end
-- ==== Proof.LibPadRead.lean ====
/-
  The host's `pad` with no low padding and no interior padding, read at an entry: a vector `[n]` padded to `[n']` and a
  matrix `[a, b]` padded to `[a', b']`. Inside the operand's extents the result is the operand there; outside, on any
  axis, it is the padding scalar. Stated as one conditional per entry, over literal coordinates.
-/
import Idealize.ShloMosaic.Lib.KernelVsHost
import Idealize.ShloMosaic.Lib.ValueIdx

noncomputable section

namespace Cert.LibPadRead

open Idealize.ShloMosaic Idealize.ShloMosaic.ValueIdx

variable {α : Type}

/-- A vector `[n]` padded at its end: entry `j` is the vector's entry `j` when `j < n`, the padding scalar otherwise. -/
theorem pad1_apply {n n' hi : ℕ} {u : Shape} (x : (⟨1, ![n]⟩ : Shape).Idx → α) (v : u.Idx → α)
    (h : (⟨1, ![n]⟩ : Shape).Pads ![0] ![hi] ![0] ⟨1, ![n']⟩) (hu : 0 < u.numel) (j : Fin n') :
    pad ⟨1, ![n']⟩ ![0] ![hi] ![0] x v h hu (ix1 j)
      = if hj : j.val < n then x (ix1 ⟨j.val, hj⟩) else v (Shape.Idx.first hu) := by
  by_cases hj : j.val < n
  · rw [dif_pos hj]
    refine pad_apply_of_inside _ _ _ x v h hu (ix1 j) (ix1 ⟨j.val, hj⟩) fun ax => ?_
    match ax with
    | ⟨0, _⟩ => show j.val = 0 + j.val * (0 + 1); omega
  · rw [dif_neg hj]
    refine pad_apply_of_not_inside _ _ _ x v h hu (ix1 j) (0 : Fin 1) fun hin => hj ?_
    have h3 : (j.val - 0) / (0 + 1) < n := hin.2.2
    simpa using h3

/-- A matrix `[a, b]` padded at the end of both axes: entry `(i, j)` is the matrix's entry `(i, j)` when `i < a` and
    `j < b`, the padding scalar otherwise. -/
theorem pad2_apply {a b a' b' ha hb : ℕ} {u : Shape} (x : (⟨2, ![a, b]⟩ : Shape).Idx → α) (v : u.Idx → α)
    (h : (⟨2, ![a, b]⟩ : Shape).Pads ![0, 0] ![ha, hb] ![0, 0] ⟨2, ![a', b']⟩) (hu : 0 < u.numel) (i : Fin a') (j : Fin b') :
    pad ⟨2, ![a', b']⟩ ![0, 0] ![ha, hb] ![0, 0] x v h hu (ix2 i j)
      = if hij : i.val < a ∧ j.val < b then x (ix2 ⟨i.val, hij.1⟩ ⟨j.val, hij.2⟩) else v (Shape.Idx.first hu) := by
  by_cases hij : i.val < a ∧ j.val < b
  · rw [dif_pos hij]
    refine pad_apply_of_inside _ _ _ x v h hu (ix2 i j) (ix2 ⟨i.val, hij.1⟩ ⟨j.val, hij.2⟩) fun ax => ?_
    match ax with
    | ⟨0, _⟩ => show i.val = 0 + i.val * (0 + 1); omega
    | ⟨1, _⟩ => show j.val = 0 + j.val * (0 + 1); omega
  · rw [dif_neg hij]
    by_cases hi : i.val < a
    · refine pad_apply_of_not_inside _ _ _ x v h hu (ix2 i j) (1 : Fin 2) fun hin => hij ⟨hi, ?_⟩
      have h3 : (j.val - 0) / (0 + 1) < b := hin.2.2
      simpa using h3
    · refine pad_apply_of_not_inside _ _ _ x v h hu (ix2 i j) (0 : Fin 2) fun hin => hi ?_
      have h3 : (i.val - 0) / (0 + 1) < a := hin.2.2
      simpa using h3

end Cert.LibPadRead

end
-- ==== Proof.KernelNet.lean ====
/-
  The idealized kernel's result as the network `Net.net` of its arguments.

  The kernel's @main applies, around its three regions, the same gather and scatter-add as the reference (the rows it
  gathers for the second and third layers are kept in the narrow float format and widened afterwards: the same extended
  reals), hands each region its bias as a row, pads the last weight matrix and bias with zero columns from 32 to 128, and
  keeps the first 32 columns of the last region's output. Column q < 32 of that output reads only column q of the padded
  weights and entry q of the padded bias, which are the unpadded ones: the padding never enters a kept entry.
-/
import proofs.«116513_j1520418422913_2_alg».proof.Proof.Gen.KernelIdeal
import proofs.«116513_j1520418422913_2_alg».proof.Proof.Net
import proofs.«116513_j1520418422913_2_alg».proof.Proof.LibPadRead
import Idealize.ShloMosaic.Lib.ValueLayout
import Idealize.ShloMosaic.Lib.Pipeline.Value
import Idealize.ShloMosaic.Lib.ValueIdx

noncomputable section

namespace Cert.KernelIdeal.KNet

open Idealize.ShloMosaic Idealize.ShloMosaic.ValueIdx
open Cert.KernelIdeal Cert.KernelIdeal.Gen Cert.LibDenseLayers Cert.LibGraphConv Cert.Net

/-- The zero word the rectifiers clamp against, as an extended real. -/
abbrev zw : EReal := Ideal.ofBits .f32 0x00000000#32

/-- The edges' sources: row 0 of the edge list. -/
def srcOf (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edges' targets: row 1 of the edge list. -/
def dstOf (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The gather's index column: each source, a negative one wrapped by the node count. -/
def gatherIdx (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The sums of a node array's rows over each node's incoming edges, the rows gathered in the wide format. -/
def aggWide (src dst : (⟨S1600000, .i32⟩ : BufTy).Contents (Elt Ideal)) (h : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h (gatherIdx src))

/-- The same sums, the rows gathered in the narrow format and widened before they are added. -/
def aggNarrow (src dst : (⟨S1600000, .i32⟩ : BufTy).Contents (Elt Ideal)) (h : FVec Ideal S100000x128 .bf16) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (extf .f32 (Host.gather gather_S100000x128_S1600000x1_S1600000x128_1_0_n_n_0_1_1128 h (gatherIdx src)) bitsLt_bf16_f32)

/-- A change of float format is the identity on extended reals, so the two are one function. -/
theorem aggNarrow_eq (src dst : (⟨S1600000, .i32⟩ : BufTy).Contents (Elt Ideal)) (h : FVec Ideal S100000x128 .bf16) :
    aggNarrow src dst h = aggWide src dst h := rfl

/-- The padding scalar: the integer zero as a float. -/
abbrev padZero : FVec Ideal S_ .f32 := sitofp .f32 (constantI S_ 32 0#32)

/-- The last weight matrix with 96 zero columns appended. -/
def wc1Pad (wc1 : FVec Ideal S128x32 .f32) : FVec Ideal S128x128 .f32 :=
  pad S128x128 ![0, 0] ![0, 96] ![0, 0] wc1 padZero pads_S128x32_S128x128_000_0960 h_S_

/-- The last bias with 96 zeros appended, as a row. -/
def bc1Pad (bc1 : FVec Ideal S32 .f32) : FVec Ideal S1x128 .f32 :=
  shapeCast S1x128 (pad S128 ![0] ![96] ![0] bc1 padZero pads_S32_S128_0960 h_S_) shapeCasts_S128_S1x128

/-- A bias vector reshaped to a row. -/
abbrev biasRow (b : FVec Ideal S128 .f32) : FVec Ideal S1x128 .f32 := shapeCast S1x128 b shapeCasts_S128_S1x128

/-- What @main computes, as a term of its arguments: three layers around the aggregation, the two dense layers on the
    padded weights, the first 32 columns kept. -/
def kernelNet (x : FVec Ideal S100000x128 .f32) (e : (⟨S2x1600000, .i32⟩ : BufTy).Contents (Elt Ideal))
    (wr0 : FVec Ideal S128x128 .f32) (b0 : FVec Ideal S128 .f32) (wo0 : FVec Ideal S128x128 .f32)
    (wr1 : FVec Ideal S128x128 .f32) (b1 : FVec Ideal S128 .f32) (wo1 : FVec Ideal S128x128 .f32)
    (wr2 : FVec Ideal S128x128 .f32) (b2 : FVec Ideal S128 .f32) (wo2 : FVec Ideal S128x128 .f32)
    (wc0 : FVec Ideal S128x128 .f32) (bc0 : FVec Ideal S128 .f32) (wc1 : FVec Ideal S128x32 .f32) (bc1 : FVec Ideal S32 .f32) :
    FVec Ideal S100000x32 .f32 :=
  let h0 := conv zw (aggWide (srcOf e) (dstOf e) x) x wr0 wo0 (biasRow b0)
  let h1 := conv zw (aggWide (srcOf e) (dstOf e) h0) h0 wr1 wo1 (biasRow b1)
  let h2 := conv zw (aggWide (srcOf e) (dstOf e) h1) h1 wr2 wo2 (biasRow b2)
  extractStridedSlice S100000x32 ![0, 0] (dense (reluDense zw h2 wc0 (biasRow bc0)) (wc1Pad wc1) (bc1Pad bc1))
    slices_S100000x128_S100000x32_0_0

/-- A vector reshaped to a row is the vector as a row. -/
theorem biasRow_eq (b : FVec Ideal S128 .f32) : biasRow b = row b := by
  funext i
  obtain ⟨u, j, rfl⟩ : ∃ (u : Fin 1) (j : Fin 128), i = ix2 u j := ⟨i 0, i 1, eq_ix2 i⟩
  exact shapeCast_a_1a_apply b shapeCasts_S128_S1x128 u j

/-- Column q < 32 of the padded weights is column q of the weights. -/
theorem wc1Pad_apply (wc1 : FVec Ideal S128x32 .f32) (j : Fin 128) (q : Fin 32) (q' : Fin 128) (hq : q'.val = q.val) :
    wc1Pad wc1 (ix2 j q') = wc1 (ix2 j q) := by
  have hin : j.val < 128 ∧ q'.val < 32 := ⟨j.isLt, by rw [hq]; exact q.isLt⟩
  unfold wc1Pad
  rw [Cert.LibPadRead.pad2_apply wc1 padZero pads_S128x32_S128x128_000_0960 h_S_ j q', dif_pos hin]
  exact congrArg wc1 (congrArg₂ ix2 (Fin.ext rfl) (Fin.ext hq))

/-- Entry q < 32 of the padded bias row is entry q of the bias. -/
theorem bc1Pad_apply (bc1 : FVec Ideal S32 .f32) (q : Fin 32) (q' : Fin 128) (hq : q'.val = q.val) :
    bc1Pad bc1 (ix2 (0 : Fin 1) q') = row bc1 (ix2 (0 : Fin 1) q) := by
  have hin : q'.val < 32 := by rw [hq]; exact q.isLt
  unfold bc1Pad
  rw [shapeCast_a_1a_apply _ shapeCasts_S128_S1x128 (0 : Fin 1) q',
    Cert.LibPadRead.pad1_apply bc1 padZero pads_S32_S128_0960 h_S_ q', dif_pos hin, row_apply]
  exact congrArg bc1 (congrArg ix1 (Fin.ext hq))

/-- Column q < 32 of the kept columns is column q of the array they were cut from. -/
theorem keep32_apply (y : FVec Ideal S100000x128 .f32) (p : Fin 100000) (q : Fin 32) (q' : Fin 128) (hq : q'.val = q.val) :
    extractStridedSlice S100000x32 ![0, 0] y slices_S100000x128_S100000x32_0_0 (ix2 p q) = y (ix2 p q') :=
  extractStridedSlice_apply ![0, 0] y slices_S100000x128_S100000x32_0_0 (ix2 p q) (ix2 p q') fun a => by
    match a with
    | ⟨0, _⟩ => show p.val = 0 + p.val; omega
    | ⟨1, _⟩ => show q'.val = 0 + q.val; omega

/-- The kernel's term is the network of its arguments, over its own aggregation. -/
theorem kernelNet_eq (x : FVec Ideal S100000x128 .f32) (e : (⟨S2x1600000, .i32⟩ : BufTy).Contents (Elt Ideal))
    (wr0 : FVec Ideal S128x128 .f32) (b0 : FVec Ideal S128 .f32) (wo0 : FVec Ideal S128x128 .f32)
    (wr1 : FVec Ideal S128x128 .f32) (b1 : FVec Ideal S128 .f32) (wo1 : FVec Ideal S128x128 .f32)
    (wr2 : FVec Ideal S128x128 .f32) (b2 : FVec Ideal S128 .f32) (wo2 : FVec Ideal S128x128 .f32)
    (wc0 : FVec Ideal S128x128 .f32) (bc0 : FVec Ideal S128 .f32) (wc1 : FVec Ideal S128x32 .f32) (bc1 : FVec Ideal S32 .f32) :
    kernelNet x e wr0 b0 wo0 wr1 b1 wo1 wr2 b2 wo2 wc0 bc0 wc1 bc1
      = net (aggWide (srcOf e) (dstOf e)) zw x wr0 b0 wo0 wr1 b1 wo1 wr2 b2 wo2 wc0 bc0 wc1 bc1 := by
  funext i
  obtain ⟨p, q, rfl⟩ : ∃ (p : Fin 100000) (q : Fin 32), i = ix2 p q := ⟨i 0, i 1, eq_ix2 i⟩
  have hq : q.val < 128 := Nat.lt_of_lt_of_le q.isLt (by decide)
  unfold kernelNet
  rw [biasRow_eq, biasRow_eq, biasRow_eq, biasRow_eq]
  refine (keep32_apply _ p q (⟨q.val, hq⟩ : Fin 128) rfl).trans ?_
  unfold net Cert.Net.hidden
  show denseAt _ _ _ p (⟨q.val, hq⟩ : Fin 128) = denseAt _ _ _ p q
  exact denseAt_congr (fun _ => rfl) (fun j => wc1Pad_apply wc1 j q _ rfl) (bc1Pad_apply bc1 q _ rfl)

end Cert.KernelIdeal.KNet

end
-- ==== Proof.Chain.lean ====
/-
  The contents of the kernel's buffers at each boundary of @main, walked from the launch memory to the result.

  @main is a stretch of host operations, a region, a stretch, a region, five stretches, a region, and a last stretch. At
  each boundary only a few buffers matter: the ones the next region reads. Each is either an argument (no operation and
  no region writes it), a host operation's value of such buffers, or a region's output array, which is that layer of the
  arrays the region was entered with. Composing the three layers gives the result buffer as `kernelNet` of the arguments.
-/
import proofs.«116513_j1520418422913_2_alg».proof.Proof.Layer0
import proofs.«116513_j1520418422913_2_alg».proof.Proof.Layer1
import proofs.«116513_j1520418422913_2_alg».proof.Proof.Layer2
import proofs.«116513_j1520418422913_2_alg».proof.Proof.KernelNet
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Chain

open Cert.KernelIdeal Cert.KernelIdeal.Gen Cert.KernelIdeal.KNet Cert.LibGraphConv Cert.LibDenseLayers

variable (m : (ℓ : Loc nD τ sig) → Buf (Elt Ideal) ℓ) (ρ : Dev nD → PrngReg)

/-! ## Before the first region -/

set_option maxHeartbeats 4000000 in
theorem W1_v13 (c : Dev nD) : W1 m ρ c (Proc.devRef .tc main_v13) = aggWide (srcOf (m ((c : Thread nD τ).loc main_arg1))) (dstOf (m ((c : Thread nD τ).loc main_arg1))) (m ((c : Thread nD τ).loc main_arg0)) := by
  show StableHlo.after hostOps0 (W0 m ρ c) (Proc.devRef .tc main_v13) = _
  after_results <;> rfl
theorem W1_v14 (c : Dev nD) : W1 m ρ c (Proc.devRef .tc main_v14) = biasRow (m ((c : Thread nD τ).loc main_arg3)) := by
  show StableHlo.after hostOps0 (W0 m ρ c) (Proc.devRef .tc main_v14) = _
  after_results <;> rfl
theorem W1_v1 (c : Dev nD) : W1 m ρ c (Proc.devRef .tc main_v1) = srcOf (m ((c : Thread nD τ).loc main_arg1)) := by
  show StableHlo.after hostOps0 (W0 m ρ c) (Proc.devRef .tc main_v1) = _
  after_results <;> rfl
theorem W1_v3 (c : Dev nD) : W1 m ρ c (Proc.devRef .tc main_v3) = dstOf (m ((c : Thread nD τ).loc main_arg1)) := by
  show StableHlo.after hostOps0 (W0 m ρ c) (Proc.devRef .tc main_v3) = _
  after_results <;> rfl
theorem W1_arg0 (c : Dev nD) : W1 m ρ c (Proc.devRef .tc main_arg0) = (m ((c : Thread nD τ).loc main_arg0)) := by
  show StableHlo.after hostOps0 (W0 m ρ c) (Proc.devRef .tc main_arg0) = _
  after_results <;> rfl
theorem W1_arg2 (c : Dev nD) : W1 m ρ c (Proc.devRef .tc main_arg2) = (m ((c : Thread nD τ).loc main_arg2)) := by
  show StableHlo.after hostOps0 (W0 m ρ c) (Proc.devRef .tc main_arg2) = _
  after_results <;> rfl
theorem W1_arg4 (c : Dev nD) : W1 m ρ c (Proc.devRef .tc main_arg4) = (m ((c : Thread nD τ).loc main_arg4)) := by
  show StableHlo.after hostOps0 (W0 m ρ c) (Proc.devRef .tc main_arg4) = _
  after_results <;> rfl
theorem W1_arg5 (c : Dev nD) : W1 m ρ c (Proc.devRef .tc main_arg5) = (m ((c : Thread nD τ).loc main_arg5)) := by
  show StableHlo.after hostOps0 (W0 m ρ c) (Proc.devRef .tc main_arg5) = _
  after_results <;> rfl
theorem W1_arg6 (c : Dev nD) : W1 m ρ c (Proc.devRef .tc main_arg6) = (m ((c : Thread nD τ).loc main_arg6)) := by
  show StableHlo.after hostOps0 (W0 m ρ c) (Proc.devRef .tc main_arg6) = _
  after_results <;> rfl
theorem W1_arg7 (c : Dev nD) : W1 m ρ c (Proc.devRef .tc main_arg7) = (m ((c : Thread nD τ).loc main_arg7)) := by
  show StableHlo.after hostOps0 (W0 m ρ c) (Proc.devRef .tc main_arg7) = _
  after_results <;> rfl
theorem W1_arg8 (c : Dev nD) : W1 m ρ c (Proc.devRef .tc main_arg8) = (m ((c : Thread nD τ).loc main_arg8)) := by
  show StableHlo.after hostOps0 (W0 m ρ c) (Proc.devRef .tc main_arg8) = _
  after_results <;> rfl
theorem W1_arg9 (c : Dev nD) : W1 m ρ c (Proc.devRef .tc main_arg9) = (m ((c : Thread nD τ).loc main_arg9)) := by
  show StableHlo.after hostOps0 (W0 m ρ c) (Proc.devRef .tc main_arg9) = _
  after_results <;> rfl
theorem W1_arg10 (c : Dev nD) : W1 m ρ c (Proc.devRef .tc main_arg10) = (m ((c : Thread nD τ).loc main_arg10)) := by
  show StableHlo.after hostOps0 (W0 m ρ c) (Proc.devRef .tc main_arg10) = _
  after_results <;> rfl
theorem W1_arg11 (c : Dev nD) : W1 m ρ c (Proc.devRef .tc main_arg11) = (m ((c : Thread nD τ).loc main_arg11)) := by
  show StableHlo.after hostOps0 (W0 m ρ c) (Proc.devRef .tc main_arg11) = _
  after_results <;> rfl
theorem W1_arg12 (c : Dev nD) : W1 m ρ c (Proc.devRef .tc main_arg12) = (m ((c : Thread nD τ).loc main_arg12)) := by
  show StableHlo.after hostOps0 (W0 m ρ c) (Proc.devRef .tc main_arg12) = _
  after_results <;> rfl
theorem W1_arg13 (c : Dev nD) : W1 m ρ c (Proc.devRef .tc main_arg13) = (m ((c : Thread nD τ).loc main_arg13)) := by
  show StableHlo.after hostOps0 (W0 m ρ c) (Proc.devRef .tc main_arg13) = _
  after_results <;> rfl
theorem W1_arg14 (c : Dev nD) : W1 m ρ c (Proc.devRef .tc main_arg14) = (m ((c : Thread nD τ).loc main_arg14)) := by
  show StableHlo.after hostOps0 (W0 m ρ c) (Proc.devRef .tc main_arg14) = _
  after_results <;> rfl

/-! ## After the first region -/

/-- The first layer's output. -/
theorem W2_v15 (c : Dev nD) : W2 m ρ c (Proc.devRef .tc main_v15) = (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3)))) :=
  (W2_arr m ρ c 5).trans ((Layer0.final (V1 m ρ) c).trans
    (Layer0.G_of (V1 m ρ) c (W1_v13 m ρ c) (W1_arg0 m ρ c) (W1_arg2 m ρ c) (W1_arg4 m ρ c) (W1_v14 m ρ c)))
theorem W2_v1 (c : Dev nD) : W2 m ρ c (Proc.devRef .tc main_v1) = srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W2_arg12 (c : Dev nD) : W2 m ρ c (Proc.devRef .tc main_arg12) = (m ((c : Thread nD τ).loc main_arg12)) :=
  (W2_of_ne m ρ c main_arg12 (by decide)).trans (W1_arg12 m ρ c)
theorem W2_arg13 (c : Dev nD) : W2 m ρ c (Proc.devRef .tc main_arg13) = (m ((c : Thread nD τ).loc main_arg13)) :=
  (W2_of_ne m ρ c main_arg13 (by decide)).trans (W1_arg13 m ρ c)
theorem W2_arg14 (c : Dev nD) : W2 m ρ c (Proc.devRef .tc main_arg14) = (m ((c : Thread nD τ).loc main_arg14)) :=
  (W2_of_ne m ρ c main_arg14 (by decide)).trans (W1_arg14 m ρ c)

/-! ## Before the second region -/

theorem W3_v26 (c : Dev nD) : W3 m ρ c (Proc.devRef .tc main_v26) = aggWide (srcOf (m ((c : Thread nD τ).loc main_arg1))) (dstOf (m ((c : Thread nD τ).loc main_arg1))) (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3)))) := by
  have e : W3 m ρ c (Proc.devRef .tc main_v26) = aggNarrow (W2 m ρ c (Proc.devRef .tc main_v1)) (W2 m ρ c (Proc.devRef .tc main_v3)) (W2 m ρ c (Proc.devRef .tc main_v15)) := by
    show StableHlo.after hostOps1 (W2 m ρ c) (Proc.devRef .tc main_v26) = _
    after_results <;> rfl
  rw [e, W2_v1, W2_v3, W2_v15, aggNarrow_eq]
theorem W3_v27 (c : Dev nD) : W3 m ρ c (Proc.devRef .tc main_v27) = biasRow (m ((c : Thread nD τ).loc main_arg6)) := by
  have e : W3 m ρ c (Proc.devRef .tc main_v27) = biasRow (W2 m ρ c (Proc.devRef .tc main_arg6)) := by
    show StableHlo.after hostOps1 (W2 m ρ c) (Proc.devRef .tc main_v27) = _
    after_results <;> rfl
  rw [e, W2_arg6]
theorem W3_v15 (c : Dev nD) : W3 m ρ c (Proc.devRef .tc main_v15) = (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3)))) :=
  (show StableHlo.after hostOps1 (W2 m ρ c) (Proc.devRef .tc main_v15) = W2 m ρ c (Proc.devRef .tc main_v15) by after_results <;> rfl).trans (W2_v15 m ρ c)
theorem W3_v1 (c : Dev nD) : W3 m ρ c (Proc.devRef .tc main_v1) = srcOf (m ((c : Thread nD τ).loc main_arg1)) :=
  (show StableHlo.after hostOps1 (W2 m ρ c) (Proc.devRef .tc main_v1) = W2 m ρ c (Proc.devRef .tc main_v1) by after_results <;> rfl).trans (W2_v1 m ρ c)
theorem W3_v3 (c : Dev nD) : W3 m ρ c (Proc.devRef .tc main_v3) = dstOf (m ((c : Thread nD τ).loc main_arg1)) :=
  (show StableHlo.after hostOps1 (W2 m ρ c) (Proc.devRef .tc main_v3) = W2 m ρ c (Proc.devRef .tc main_v3) by after_results <;> rfl).trans (W2_v3 m ρ c)
theorem W3_arg5 (c : Dev nD) : W3 m ρ c (Proc.devRef .tc main_arg5) = (m ((c : Thread nD τ).loc main_arg5)) :=
  (show StableHlo.after hostOps1 (W2 m ρ c) (Proc.devRef .tc main_arg5) = W2 m ρ c (Proc.devRef .tc main_arg5) by after_results <;> rfl).trans (W2_arg5 m ρ c)
theorem W3_arg7 (c : Dev nD) : W3 m ρ c (Proc.devRef .tc main_arg7) = (m ((c : Thread nD τ).loc main_arg7)) :=
  (show StableHlo.after hostOps1 (W2 m ρ c) (Proc.devRef .tc main_arg7) = W2 m ρ c (Proc.devRef .tc main_arg7) by after_results <;> rfl).trans (W2_arg7 m ρ c)
theorem W3_arg8 (c : Dev nD) : W3 m ρ c (Proc.devRef .tc main_arg8) = (m ((c : Thread nD τ).loc main_arg8)) :=
  (show StableHlo.after hostOps1 (W2 m ρ c) (Proc.devRef .tc main_arg8) = W2 m ρ c (Proc.devRef .tc main_arg8) by after_results <;> rfl).trans (W2_arg8 m ρ c)
theorem W3_arg9 (c : Dev nD) : W3 m ρ c (Proc.devRef .tc main_arg9) = (m ((c : Thread nD τ).loc main_arg9)) :=
  (show StableHlo.after hostOps1 (W2 m ρ c) (Proc.devRef .tc main_arg9) = W2 m ρ c (Proc.devRef .tc main_arg9) by after_results <;> rfl).trans (W2_arg9 m ρ c)
theorem W3_arg10 (c : Dev nD) : W3 m ρ c (Proc.devRef .tc main_arg10) = (m ((c : Thread nD τ).loc main_arg10)) :=
  (show StableHlo.after hostOps1 (W2 m ρ c) (Proc.devRef .tc main_arg10) = W2 m ρ c (Proc.devRef .tc main_arg10) by after_results <;> rfl).trans (W2_arg10 m ρ c)
theorem W3_arg11 (c : Dev nD) : W3 m ρ c (Proc.devRef .tc main_arg11) = (m ((c : Thread nD τ).loc main_arg11)) :=
  (show StableHlo.after hostOps1 (W2 m ρ c) (Proc.devRef .tc main_arg11) = W2 m ρ c (Proc.devRef .tc main_arg11) by after_results <;> rfl).trans (W2_arg11 m ρ c)
theorem W3_arg12 (c : Dev nD) : W3 m ρ c (Proc.devRef .tc main_arg12) = (m ((c : Thread nD τ).loc main_arg12)) :=
  (show StableHlo.after hostOps1 (W2 m ρ c) (Proc.devRef .tc main_arg12) = W2 m ρ c (Proc.devRef .tc main_arg12) by after_results <;> rfl).trans (W2_arg12 m ρ c)
theorem W3_arg13 (c : Dev nD) : W3 m ρ c (Proc.devRef .tc main_arg13) = (m ((c : Thread nD τ).loc main_arg13)) :=
  (show StableHlo.after hostOps1 (W2 m ρ c) (Proc.devRef .tc main_arg13) = W2 m ρ c (Proc.devRef .tc main_arg13) by after_results <;> rfl).trans (W2_arg13 m ρ c)
theorem W3_arg14 (c : Dev nD) : W3 m ρ c (Proc.devRef .tc main_arg14) = (m ((c : Thread nD τ).loc main_arg14)) :=
  (show StableHlo.after hostOps1 (W2 m ρ c) (Proc.devRef .tc main_arg14) = W2 m ρ c (Proc.devRef .tc main_arg14) by after_results <;> rfl).trans (W2_arg14 m ρ c)

/-! ## After the second region -/

/-- The second layer's output. -/
theorem W4_v28 (c : Dev nD) : W4 m ρ c (Proc.devRef .tc main_v28) = (conv zw (aggWide (srcOf (m ((c : Thread nD τ).loc main_arg1))) (dstOf (m ((c : Thread nD τ).loc main_arg1))) (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3))))) (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3)))) (m ((c : Thread nD τ).loc main_arg5)) (m ((c : Thread nD τ).loc main_arg7)) (biasRow (m ((c : Thread nD τ).loc main_arg6)))) :=
  (W4_arr m ρ c 5).trans ((Layer1.final (V3 m ρ) c).trans
    (Layer1.G_of (V3 m ρ) c (W3_v26 m ρ c) (W3_v15 m ρ c) (W3_arg5 m ρ c) (W3_arg7 m ρ c) (W3_v27 m ρ c)))
theorem W4_v1 (c : Dev nD) : W4 m ρ c (Proc.devRef .tc main_v1) = srcOf (m ((c : Thread nD τ).loc main_arg1)) :=
  (W4_of_ne m ρ c main_v1 (by decide)).trans (W3_v1 m ρ c)
theorem W4_v3 (c : Dev nD) : W4 m ρ c (Proc.devRef .tc main_v3) = dstOf (m ((c : Thread nD τ).loc main_arg1)) :=
  (W4_of_ne m ρ c main_v3 (by decide)).trans (W3_v3 m ρ c)
theorem W4_arg8 (c : Dev nD) : W4 m ρ c (Proc.devRef .tc main_arg8) = (m ((c : Thread nD τ).loc main_arg8)) :=
  (W4_of_ne m ρ c main_arg8 (by decide)).trans (W3_arg8 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W4_arg11 (c : Dev nD) : W4 m ρ c (Proc.devRef .tc main_arg11) = (m ((c : Thread nD τ).loc main_arg11)) :=
  (W4_of_ne m ρ c main_arg11 (by decide)).trans (W3_arg11 m ρ c)
theorem W4_arg12 (c : Dev nD) : W4 m ρ c (Proc.devRef .tc main_arg12) = (m ((c : Thread nD τ).loc main_arg12)) :=
  (W4_of_ne m ρ c main_arg12 (by decide)).trans (W3_arg12 m ρ c)
theorem W4_arg13 (c : Dev nD) : W4 m ρ c (Proc.devRef .tc main_arg13) = (m ((c : Thread nD τ).loc main_arg13)) :=
  (W4_of_ne m ρ c main_arg13 (by decide)).trans (W3_arg13 m ρ c)
theorem W4_arg14 (c : Dev nD) : W4 m ρ c (Proc.devRef .tc main_arg14) = (m ((c : Thread nD τ).loc main_arg14)) :=
  (W4_of_ne m ρ c main_arg14 (by decide)).trans (W3_arg14 m ρ c)

/-! ## Before the third region -/

set_option maxHeartbeats 4000000 in
theorem W9_v39 (c : Dev nD) : W9 m ρ c (Proc.devRef .tc main_v39) = aggWide (srcOf (m ((c : Thread nD τ).loc main_arg1))) (dstOf (m ((c : Thread nD τ).loc main_arg1))) (conv zw (aggWide (srcOf (m ((c : Thread nD τ).loc main_arg1))) (dstOf (m ((c : Thread nD τ).loc main_arg1))) (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3))))) (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3)))) (m ((c : Thread nD τ).loc main_arg5)) (m ((c : Thread nD τ).loc main_arg7)) (biasRow (m ((c : Thread nD τ).loc main_arg6)))) := by
  have e : W9 m ρ c (Proc.devRef .tc main_v39) = aggNarrow (W4 m ρ c (Proc.devRef .tc main_v1)) (W4 m ρ c (Proc.devRef .tc main_v3)) (W4 m ρ c (Proc.devRef .tc main_v28)) := by
    show StableHlo.after hostOps2_4 (StableHlo.after hostOps2_3 (StableHlo.after hostOps2_2 (StableHlo.after hostOps2_1 (StableHlo.after hostOps2 (W4 m ρ c))))) (Proc.devRef .tc main_v39) = _
    after_results_simp <;> rfl
  rw [e, W4_v1, W4_v3, W4_v28, aggNarrow_eq]
theorem W9_v28 (c : Dev nD) : W9 m ρ c (Proc.devRef .tc main_v28) = (conv zw (aggWide (srcOf (m ((c : Thread nD τ).loc main_arg1))) (dstOf (m ((c : Thread nD τ).loc main_arg1))) (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3))))) (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3)))) (m ((c : Thread nD τ).loc main_arg5)) (m ((c : Thread nD τ).loc main_arg7)) (biasRow (m ((c : Thread nD τ).loc main_arg6)))) := by
  have e : W9 m ρ c (Proc.devRef .tc main_v28) = (W4 m ρ c (Proc.devRef .tc main_v28)) := by
    show StableHlo.after hostOps2_4 (StableHlo.after hostOps2_3 (StableHlo.after hostOps2_2 (StableHlo.after hostOps2_1 (StableHlo.after hostOps2 (W4 m ρ c))))) (Proc.devRef .tc main_v28) = _
    after_results <;> rfl
  rw [e, W4_v28]
theorem W9_arg8 (c : Dev nD) : W9 m ρ c (Proc.devRef .tc main_arg8) = (m ((c : Thread nD τ).loc main_arg8)) := by
  have e : W9 m ρ c (Proc.devRef .tc main_arg8) = (W4 m ρ c (Proc.devRef .tc main_arg8)) := by
    show StableHlo.after hostOps2_4 (StableHlo.after hostOps2_3 (StableHlo.after hostOps2_2 (StableHlo.after hostOps2_1 (StableHlo.after hostOps2 (W4 m ρ c))))) (Proc.devRef .tc main_arg8) = _
    after_results <;> rfl
  rw [e, W4_arg8]
theorem W9_v42 (c : Dev nD) : W9 m ρ c (Proc.devRef .tc main_v42) = biasRow (m ((c : Thread nD τ).loc main_arg9)) := by
  have e : W9 m ρ c (Proc.devRef .tc main_v42) = biasRow (W4 m ρ c (Proc.devRef .tc main_arg9)) := by
    show StableHlo.after hostOps2_4 (StableHlo.after hostOps2_3 (StableHlo.after hostOps2_2 (StableHlo.after hostOps2_1 (StableHlo.after hostOps2 (W4 m ρ c))))) (Proc.devRef .tc main_v42) = _
    after_results <;> rfl
  rw [e, W4_arg9]
theorem W9_arg10 (c : Dev nD) : W9 m ρ c (Proc.devRef .tc main_arg10) = (m ((c : Thread nD τ).loc main_arg10)) := by
  have e : W9 m ρ c (Proc.devRef .tc main_arg10) = (W4 m ρ c (Proc.devRef .tc main_arg10)) := by
    show StableHlo.after hostOps2_4 (StableHlo.after hostOps2_3 (StableHlo.after hostOps2_2 (StableHlo.after hostOps2_1 (StableHlo.after hostOps2 (W4 m ρ c))))) (Proc.devRef .tc main_arg10) = _
    after_results <;> rfl
  rw [e, W4_arg10]
theorem W9_arg11 (c : Dev nD) : W9 m ρ c (Proc.devRef .tc main_arg11) = (m ((c : Thread nD τ).loc main_arg11)) := by
  have e : W9 m ρ c (Proc.devRef .tc main_arg11) = (W4 m ρ c (Proc.devRef .tc main_arg11)) := by
    show StableHlo.after hostOps2_4 (StableHlo.after hostOps2_3 (StableHlo.after hostOps2_2 (StableHlo.after hostOps2_1 (StableHlo.after hostOps2 (W4 m ρ c))))) (Proc.devRef .tc main_arg11) = _
    after_results <;> rfl
  rw [e, W4_arg11]
theorem W9_v43 (c : Dev nD) : W9 m ρ c (Proc.devRef .tc main_v43) = biasRow (m ((c : Thread nD τ).loc main_arg12)) := by
  have e : W9 m ρ c (Proc.devRef .tc main_v43) = biasRow (W4 m ρ c (Proc.devRef .tc main_arg12)) := by
    show StableHlo.after hostOps2_4 (StableHlo.after hostOps2_3 (StableHlo.after hostOps2_2 (StableHlo.after hostOps2_1 (StableHlo.after hostOps2 (W4 m ρ c))))) (Proc.devRef .tc main_v43) = _
    after_results <;> rfl
  rw [e, W4_arg12]
theorem W9_v40 (c : Dev nD) : W9 m ρ c (Proc.devRef .tc main_v40) = wc1Pad (m ((c : Thread nD τ).loc main_arg13)) := by
  have e : W9 m ρ c (Proc.devRef .tc main_v40) = wc1Pad (W4 m ρ c (Proc.devRef .tc main_arg13)) := by
    show StableHlo.after hostOps2_4 (StableHlo.after hostOps2_3 (StableHlo.after hostOps2_2 (StableHlo.after hostOps2_1 (StableHlo.after hostOps2 (W4 m ρ c))))) (Proc.devRef .tc main_v40) = _
    after_results <;> rfl
  rw [e, W4_arg13]
theorem W9_v44 (c : Dev nD) : W9 m ρ c (Proc.devRef .tc main_v44) = bc1Pad (m ((c : Thread nD τ).loc main_arg14)) := by
  have e : W9 m ρ c (Proc.devRef .tc main_v44) = bc1Pad (W4 m ρ c (Proc.devRef .tc main_arg14)) := by
    show StableHlo.after hostOps2_4 (StableHlo.after hostOps2_3 (StableHlo.after hostOps2_2 (StableHlo.after hostOps2_1 (StableHlo.after hostOps2 (W4 m ρ c))))) (Proc.devRef .tc main_v44) = _
    after_results <;> rfl
  rw [e, W4_arg14]

/-! ## After the third region, and the result -/

/-- The third region's output: the third layer and the two dense layers on the padded weights. -/
theorem W10_v45 (c : Dev nD) : W10 m ρ c (Proc.devRef .tc main_v45)
    = dense (reluDense zw (conv zw (aggWide (srcOf (m ((c : Thread nD τ).loc main_arg1))) (dstOf (m ((c : Thread nD τ).loc main_arg1))) (conv zw (aggWide (srcOf (m ((c : Thread nD τ).loc main_arg1))) (dstOf (m ((c : Thread nD τ).loc main_arg1))) (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3))))) (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3)))) (m ((c : Thread nD τ).loc main_arg5)) (m ((c : Thread nD τ).loc main_arg7)) (biasRow (m ((c : Thread nD τ).loc main_arg6))))) (conv zw (aggWide (srcOf (m ((c : Thread nD τ).loc main_arg1))) (dstOf (m ((c : Thread nD τ).loc main_arg1))) (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3))))) (conv zw (aggWide (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg4)) (biasRow (m ((c : Thread nD τ).loc main_arg3)))) (m ((c : Thread nD τ).loc main_arg5)) (m ((c : Thread nD τ).loc main_arg7)) (biasRow (m ((c : Thread nD τ).loc main_arg6)))) (m ((c : Thread nD τ).loc main_arg8)) (m ((c : Thread nD τ).loc main_arg10)) (biasRow (m ((c : Thread nD τ).loc main_arg9)))) (m ((c : Thread nD τ).loc main_arg11)) (biasRow (m ((c : Thread nD τ).loc main_arg12))))
        (wc1Pad (m ((c : Thread nD τ).loc main_arg13))) (bc1Pad (m ((c : Thread nD τ).loc main_arg14))) :=
  (W10_arr m ρ c 9).trans ((Layer2.final (V9 m ρ) c).trans
    (Layer2.G_of (V9 m ρ) c (W9_v39 m ρ c) (W9_v28 m ρ c) (W9_arg8 m ρ c) (W9_arg10 m ρ c) (W9_v42 m ρ c)
      (W9_arg11 m ρ c) (W9_v43 m ρ c) (W9_v40 m ρ c) (W9_v44 m ρ c)))

/-- The result buffer after @main: the kernel's term of the arguments. -/
theorem result (c : Dev nD) : W11 m ρ c (Proc.devRef .tc main_v46)
    = kernelNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e : W11 m ρ c (Proc.devRef .tc main_v46) = extractStridedSlice S100000x32 ![0, 0] (W10 m ρ c (Proc.devRef .tc main_v45)) slices_S100000x128_S100000x32_0_0 := by
    show StableHlo.after hostOps3 (W10 m ρ c) (Proc.devRef .tc main_v46) = _
    after_results <;> rfl
  rw [e, W10_v45]
  rfl

end Cert.KernelIdeal.Chain

end
-- ==== Proof.RefNet.lean ====
/-
  The reference's result as the network `Net.net` of its arguments.

  The reference's @main is three copies of one layer — gather the rows at the edges' sources, scatter-add them at the
  edges' targets, two matrix products, the bias, the rectifier — followed by a rectified dense layer and a dense layer.
  Each layer, read at an entry, is `conv` of the aggregated array and the layer's input (the bias added before the second
  product instead of after it: the same extended real); the aggregation itself is carried as one function, never opened.
-/
import proofs.«116513_j1520418422913_2_alg».proof.Proof.Gen.ReferenceIdeal.Run
import proofs.«116513_j1520418422913_2_alg».proof.Proof.Net
import proofs.«116513_j1520418422913_2_alg».proof.Proof.LibPlainRecord
import Idealize.ShloMosaic.Lib.ValueIdx

noncomputable section

namespace Cert.ReferenceIdeal.RefNet

open Idealize.ShloMosaic Idealize.ShloMosaic.TcCoe Idealize.SL.Sem Idealize.ShloMosaic.ValueIdx
open Cert.ReferenceIdeal Cert.ReferenceIdeal.Gen Cert.LibMatRows Cert.LibHostBroadcast Cert.LibDenseLayers Cert.LibGraphConv Cert.Net

/-- The zero word the rectifiers clamp against, as an extended real. -/
abbrev zw : EReal := Ideal.ofBits .f32 0x00000000#32

/-- The sums of a node array's rows over each node's incoming edges, as the program writes them: the rows gathered at the
    edges' sources (a negative index wrapped by the node count) and scatter-added at the edges' targets into zeros. -/
def aggregate (e : (⟨S2x1600000, .i32⟩ : BufTy).Contents (Elt Ideal)) (h : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (shapeCast _ (extractStridedSlice S1x1600000 ![1, 0] e slices_S2x1600000_S1x1600000_1_0) shapeCasts_S1x1600000_S1600000))
    (Host.gather gather_S100000x128_S1600000x1_S1600000x128_1_0_n_n_0_1_1128 h
      (broadcastInDim S1600000x1 ![0] bcast_S1600000_S1600000x1_0
        (select (cmpi .slt (shapeCast _ (extractStridedSlice S1x1600000 ![0, 0] e slices_S2x1600000_S1x1600000_0_0) shapeCasts_S1x1600000_S1600000) (broadcastInDim S1600000 ![] bcast_S_S1600000 (constantI S_ 32 0#32)))
          (addi (shapeCast _ (extractStridedSlice S1x1600000 ![0, 0] e slices_S2x1600000_S1x1600000_0_0) shapeCasts_S1x1600000_S1600000) (broadcastInDim S1600000 ![] bcast_S_S1600000 (constantI S_ 32 100000#32)))
          (shapeCast _ (extractStridedSlice S1x1600000 ![0, 0] e slices_S2x1600000_S1x1600000_0_0) shapeCasts_S1x1600000_S1600000))))

/-- One graph layer as the program writes it. -/
def layer (e : (⟨S2x1600000, .i32⟩ : BufTy).Contents (Elt Ideal)) (h : FVec Ideal S100000x128 .f32) (wr : FVec Ideal S128x128 .f32)
    (b : FVec Ideal S128 .f32) (wo : FVec Ideal S128x128 .f32) : FVec Ideal S100000x128 .f32 :=
  maximumf (addf (addf (Host.dotGeneral dot_S100000x128_S128x128_S100000x128_1_0_0_1_n_n none (aggregate e h) wr)
        (broadcastInDim S100000x128 ![0, 1] bcast_S1x128_S100000x128_0_1 (broadcastInDim S1x128 ![1] bcast_S128_S1x128_1 b)))
      (Host.dotGeneral dot_S100000x128_S128x128_S100000x128_1_0_0_1_n_n none h wo))
    (broadcastInDim S100000x128 ![] bcast_S_S100000x128 (constant S_ .f32 0x00000000#32))

/-- The products against the 128 x 128 weights are plain products. -/
theorem plain : RowsTimesMat dot_S100000x128_S128x128_S100000x128_1_0_0_1_n_n :=
  Cert.LibPlainRecord.rowsTimesMat_of_lists _ rfl rfl rfl rfl rfl rfl

/-- So is the product against the 128 x 32 weights. -/
theorem plain32 : RowsTimesMat dot_S100000x128_S128x32_S100000x32_1_0_0_1_n_n :=
  Cert.LibPlainRecord.rowsTimesMat_of_lists _ rfl rfl rfl rfl rfl rfl

/-- A layer is `conv` of the aggregated array and its input. -/
theorem layer_eq (e : (⟨S2x1600000, .i32⟩ : BufTy).Contents (Elt Ideal)) (h : FVec Ideal S100000x128 .f32) (wr : FVec Ideal S128x128 .f32)
    (b : FVec Ideal S128 .f32) (wo : FVec Ideal S128x128 .f32) :
    layer e h wr b wo = conv zw (aggregate e h) h wr wo (row b) := by
  funext i
  obtain ⟨p, q, rfl⟩ : ∃ (p : Fin 100000) (q : Fin 128), i = ix2 p q := ⟨i 0, i 1, eq_ix2 i⟩
  unfold layer
  refine (ref_conv plain (aggregate e h) h wr wo _ bcast_S1x128_S100000x128_0_1 _ bcast_S_S100000x128 p q).trans ?_
  rw [conv_apply]
  exact convAt_congr (fun _ => rfl) (fun _ => rfl) (fun _ => rfl) (fun _ => rfl) (vec_to_row_apply b bcast_S128_S1x128_1 0 q)

/-- The program's result term is the network of its arguments. -/
theorem result_eq (m : (ℓ : Loc nD τ sig) → Buf (Elt Ideal) ℓ) (c : Dev nD) :
    Value.res_main_v63 (F := Ideal) m c
      = net (aggregate (m ((c.tc : Thread nD τ).loc main_arg1))) zw (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14)) := by
  unfold Value.res_main_v63
  show addf (Host.dotGeneral dot_S100000x128_S128x32_S100000x32_1_0_0_1_n_n none
        (maximumf (addf (Host.dotGeneral dot_S100000x128_S128x128_S100000x128_1_0_0_1_n_n none (layer (m ((c.tc : Thread nD τ).loc main_arg1)) (layer (m ((c.tc : Thread nD τ).loc main_arg1)) (layer (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10))) (m ((c.tc : Thread nD τ).loc main_arg11))) (broadcastInDim S100000x128 ![0, 1] bcast_S1x128_S100000x128_0_1 (broadcastInDim S1x128 ![1] bcast_S128_S1x128_1 (m ((c.tc : Thread nD τ).loc main_arg12))))) (broadcastInDim S100000x128 ![] bcast_S_S100000x128 (constant S_ .f32 0x00000000#32)))
        (m ((c.tc : Thread nD τ).loc main_arg13)))
      (broadcastInDim S100000x32 ![0, 1] bcast_S1x32_S100000x32_0_1 (broadcastInDim S1x32 ![1] bcast_S32_S1x32_1 (m ((c.tc : Thread nD τ).loc main_arg14)))) = _
  rw [layer_eq, layer_eq, layer_eq]
  funext i
  obtain ⟨p, q, rfl⟩ : ∃ (p : Fin 100000) (q : Fin 32), i = ix2 p q := ⟨i 0, i 1, eq_ix2 i⟩
  refine (ref_dense plain32 _ _ _ bcast_S1x32_S100000x32_0_1 p q).trans ?_
  unfold net
  show _ = denseAt _ _ _ p q
  refine denseAt_congr (fun j => ?_) (fun _ => rfl) (vec_to_row_apply _ bcast_S32_S1x32_1 0 q)
  refine (ref_reluDense plain _ _ _ bcast_S1x128_S100000x128_0_1 _ bcast_S_S100000x128 p j).trans ?_
  rw [reluDense_apply]
  exact reluDenseAt_congr (fun _ => rfl) (fun _ => rfl) (vec_to_row_apply _ bcast_S128_S1x128_1 0 j)

end Cert.ReferenceIdeal.RefNet

end
-- ==== Proof.lean ====
/-
  The certificate of a three-layer graph-convolution network with a two-layer classifier on 100000 nodes and 1600000 edges.

  Both programs compute, from the node features x, the edge list and the weights,
      h ↦ max ((A h) · w_rel + h · w_root + b, 0)   three times,   then   max (h · wc0 + bc0, 0) · wc1 + bc1,
  where A sums a node array's rows over each node's incoming edges (a gather at the sources, a scatter-add at the targets).
  The kernel runs each graph layer as a grid of 25 blocks of 4000 rows, the last one fused with the two dense layers on
  weights padded from 32 to 128 columns, and keeps the first 32 columns; the reference runs whole-array operations.

  At the ideal values the two agree entry by entry. A block's entry reads one row of its inputs, which is a row of the whole
  arrays, so each region's output is the layer of the arrays it was entered with; changes of float format are the
  identity; a padded column is never read by a kept entry; the reference adds the bias before the second product and the
  kernel after it, which is the same extended real because addition there is commutative and associative. The
  aggregation is the same host function in both programs and is never opened. No finiteness of the inputs is used.
-/
import proofs.«116513_j1520418422913_2_alg».proof.Defs
import proofs.«116513_j1520418422913_2_alg».proof.Proof.Gen.Kernel
import proofs.«116513_j1520418422913_2_alg».proof.Proof.Gen.Kernel.Skeleton
import proofs.«116513_j1520418422913_2_alg».proof.Proof.Gen.Kernel.Launch
import proofs.«116513_j1520418422913_2_alg».proof.Proof.Gen.Kernel.Points
import proofs.«116513_j1520418422913_2_alg».proof.Proof.Gen.Kernel.Frame
import proofs.«116513_j1520418422913_2_alg».proof.Proof.Gen.KernelIdeal
import proofs.«116513_j1520418422913_2_alg».proof.Proof.Gen.KernelIdeal.Skeleton
import proofs.«116513_j1520418422913_2_alg».proof.Proof.Gen.KernelIdeal.Launch
import proofs.«116513_j1520418422913_2_alg».proof.Proof.Gen.KernelIdeal.Points
import proofs.«116513_j1520418422913_2_alg».proof.Proof.Gen.KernelIdeal.Frame
import proofs.«116513_j1520418422913_2_alg».proof.Proof.Gen.ReferenceIdeal
import proofs.«116513_j1520418422913_2_alg».proof.Proof.Gen.Pre_finite_inputs
import proofs.«116513_j1520418422913_2_alg».proof.Proof.Gen.ReferenceIdeal.Run
import proofs.«116513_j1520418422913_2_alg».proof.Proof.KernelRun
import proofs.«116513_j1520418422913_2_alg».proof.Proof.Chain
import proofs.«116513_j1520418422913_2_alg».proof.Proof.RefNet
import Idealize.ShloMosaic.Adequacy
import Idealize.ShloMosaic.Init

noncomputable section

namespace Cert.Proof

open Idealize.ShloMosaic Idealize.ShloMosaic.TcCoe Idealize.SL.Sem

/-- The two programs' aggregations are one function of the edge list and the node array: the same gather at the wrapped
    sources and the same scatter-add at the targets into zeros. -/
theorem aggregate_eq (e : (⟨Cert.KernelIdeal.S2x1600000, .i32⟩ : BufTy).Contents (Elt Ideal)) :
    Cert.KernelIdeal.KNet.aggWide (Cert.KernelIdeal.KNet.srcOf e) (Cert.KernelIdeal.KNet.dstOf e)
      = Cert.ReferenceIdeal.RefNet.aggregate e :=
  funext fun _ => rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the network of the arguments: the kernel's over its boundary contents walked back to
    the launch memory, the reference's over its composed term; the arguments agree, and so do the two aggregations. -/
theorem algebraic : Cert.algebraic_KernelIdeal_ReferenceIdeal := by
  intro m ρ m' ρ' _ hagree
  refine ⟨fun c => Cert.KernelIdeal.KNet.kernelNet
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Chain.result m ρ c), (h c).2⟩) (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    beta_reduce
    rw [Cert.ReferenceIdeal.RefNet.result_eq, Cert.KernelIdeal.KNet.kernelNet_eq,
      e0, e1, e2, e3, e4, e5, e6, e7, e8, e9, e10, e11, e12, e13, e14, aggregate_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
